-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel

variable [Facts]

def fn {F : FTy → Type} [FloatOps F] (main_arg0 : FVec F S4x2048x1024 .f32) (main_arg1 : FVec F S4x2048x1024 .f32) (main_arg2 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  main_v13
-- ==== Kernel.lean ====
abbrev S4x2048x1024 : Shape := ⟨3, ![4, 2048, 1024]⟩
abbrev S1x1024x128 : Shape := ⟨3, ![1, 1024, 128]⟩
abbrev S1024x1 : Shape := ⟨2, ![1024, 1]⟩
abbrev S1024x64 : Shape := ⟨2, ![1024, 64]⟩
abbrev S1024x128 : Shape := ⟨2, ![1024, 128]⟩
abbrev S64x1024 : Shape := ⟨2, ![64, 1024]⟩
abbrev S1024x1024 : Shape := ⟨2, ![1024, 1024]⟩
abbrev S1024 : Shape := ⟨1, ![1024]⟩

abbrev nBuf : Space → Nat
  | .hbm => 4
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x1024, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1024x1, .f32⟩
  | .local _ .vmem, ⟨9, _⟩ => ⟨S1024x1, .f32⟩
  | .local _ .vmem, ⟨10, _⟩ => ⟨S1024x64, .f32⟩
  | .local _ .vmem, ⟨11, _⟩ => ⟨S1024x1, .f32⟩
  | .local _ .vmem, ⟨12, _⟩ => ⟨S1024x1, .f32⟩
  | .local _ .vmem, ⟨13, _⟩ => ⟨S1024x64, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![4, 8, 2, 2], ![false, false, false, false]⟩

def k0_cond2 (i : grid0.Coords) : BitVec 1 :=
  let arg3 : BitVec 32 := BitVec.ofNat 32 (i 3).val
  let c1_i32 : BitVec 32 := 1#32
  let v82 : BitVec 1 := Scalar.cmpi .eq arg3 c1_i32
  let v83 : BitVec 32 := Scalar.extui v82
  let c0_i32_41 : BitVec 32 := 0#32
  let v84 : BitVec 1 := Scalar.cmpi .ne v83 c0_i32_41
  v84

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  bitsLt_bf16_f32 : FTy.bits .bf16 < FTy.bits .f32
  slices_S1024x128_o0_0_S1024x64 : S1024x128.Slices ![0, 0] S1024x64
  slices_S1024x128_o0_64_S1024x64 : S1024x128.Slices ![0, 64] S1024x64
  transposes_S1024x64_p1_0_S64x1024 : S1024x64.Transposes [1, 0] S64x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  concatenates_S1024x64_S1024x64_S1024x128_d1 : Shape.Concatenates [S1024x64, S1024x64] S1024x128 1
  shapeCasts_S1024x128_S1x1024x128 : S1024x128.ShapeCasts S1x1024x128
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S4x2048x1024.size a
  hwx0_0 : ∀ i : grid0.Coords, EltTy.bits .f32 = 32 ∨ (Rect.block (s := S4x2048x1024) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S4x2048x1024.size a
  hwx0_1 : ∀ i : grid0.Coords, EltTy.bits .f32 = 32 ∨ (Rect.block (s := S4x2048x1024) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S4x2048x1024.size a
  hwx0_2 : ∀ i : grid0.Coords, EltTy.bits .f32 = 32 ∨ (Rect.block (s := S4x2048x1024) S1x1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S4x2048x1024.size a
  hwx0_3 : ∀ i : grid0.Coords, EltTy.bits .f32 = 32 ∨ (Rect.block (s := S4x2048x1024) S1x1024x128.size (cc0_transform_3 i) (hinb0_3 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x16x64, .f32⟩
  | .hbm, ⟨4, _⟩ => ⟨S4x16x2048x64, .f32⟩
  | .hbm, ⟨5, _⟩ => ⟨S4x2048x16x64, .f32⟩
  | .hbm, ⟨6, _⟩ => ⟨S4x16x2048x64, .f32⟩
  | .hbm, ⟨7, _⟩ => ⟨S4x2048x16x64, .f32⟩
  | .hbm, ⟨8, _⟩ => ⟨S4x16x2048x64, .f32⟩
  | .hbm, ⟨9, _⟩ => ⟨S4x16x2048x2048, .f32⟩
  | .hbm, ⟨10, _⟩ => ⟨S_, .f32⟩
  | .hbm, ⟨11, _⟩ => ⟨S_, .f32⟩
  | .hbm, ⟨12, _⟩ => ⟨S4x16x2048x2048, .f32⟩
  | .hbm, ⟨13, _⟩ => ⟨S4x16x2048x2048, .f32⟩
  | .hbm, ⟨14, _⟩ => ⟨S_, .f32⟩
  | .hbm, ⟨15, _⟩ => ⟨S4x16x2048, .f32⟩
  | .hbm, ⟨16, _⟩ => ⟨S_, .f32⟩
  | .hbm, ⟨17, _⟩ => ⟨S4x16x2048, .f32⟩
  | .hbm, ⟨18, _⟩ => ⟨S4x16x2048, .f32⟩
  | .hbm, ⟨19, _⟩ => ⟨S4x16x2048x1, .f32⟩
  | .hbm, ⟨20, _⟩ => ⟨S4x16x2048x2048, .f32⟩
  | .hbm, ⟨21, _⟩ => ⟨S4x16x2048x2048, .f32⟩
  | .hbm, ⟨22, _⟩ => ⟨S4x16x2048x2048, .f32⟩
  | .hbm, ⟨23, _⟩ => ⟨S_, .f32⟩
  | .hbm, ⟨24, _⟩ => ⟨S4x16x2048, .f32⟩
  | .hbm, ⟨25, _⟩ => ⟨S4x16x2048x1, .f32⟩
  | .hbm, ⟨26, _⟩ => ⟨S4x16x2048x2048, .f32⟩
  | .hbm, ⟨27, _⟩ => ⟨S4x16x2048x2048, .f32⟩
  | .hbm, ⟨28, _⟩ => ⟨S4x16x2048x64, .f32⟩
  | .hbm, ⟨29, _⟩ => ⟨S4x2048x16x64, .f32⟩
  | .hbm, ⟨30, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Pieces.lean ====
/-
  What one grid point leaves behind, as terms of the body's arithmetic.

  At a point with the first key block (the running triple is reset first) each of the six carried buffers — maximum,
  denominator and numerator of the first head, then of the second — ends holding one softmax step from the empty
  triple (-inf, 0, 0) over the point's query, key and value blocks. At a point with the last key block the output
  block ends holding numerator / denominator of one further step from what the point before left, the two heads
  side by side. Each is the payload of the last covering store of its buffer, with every load read back.
-/
import proofs.«119473_j2525440770966_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## A point with the first key block: one step from the empty triple -/

theorem sA0 (c : Dev nD) (i : grid0.Coords) (a4 : Memref sig .tc .vmem S1x1024x128 .f32) (h4 : a4.IsWhole) (a5 : Memref sig .tc .vmem S1x1024x128 .f32) (h5 : a5.IsWhole) (a6 : Memref sig .tc .vmem S1x1024x128 .f32) (h6 : a6.IsWhole) (a7 : Memref sig .tc .vmem S1x1024x128 .f32) (h7 : a7.IsWhole) (a8 : Memref sig .tc .vmem S1024x1 .f32) (h8 : a8.IsWhole) (a9 : Memref sig .tc .vmem S1024x1 .f32) (h9 : a9.IsWhole) (a10 : Memref sig .tc .vmem S1024x64 .f32) (h10 : a10.IsWhole) (a11 : Memref sig .tc .vmem S1024x1 .f32) (h11 : a11.IsWhole) (a12 : Memref sig .tc .vmem S1024x1 .f32) (h12 : a12.IsWhole) (a13 : Memref sig .tc .vmem S1024x64 .f32) (h13 : a13.IsWhole) (hc0 : cond0_0 i) (hc1 : ¬cond0_1 i)
    (x0 x1 x2 : Vec F S1x1024x128 .f32) :
    sout0_A_0 c i a4 h4 a5 h5 a6 h6 a7 h7 a8 h8 a9 h9 a10 h10 a11 h11 a12 h12 a13 h13 hc0 hc1 x0 x1 x2 = k0_pay24 (k0_pay18 x0 x1 k0_pay4) := by
  unfold sout0_A_0
  rw [View.read_writes_eq_canon _ _ _ (scover0_A_0 c i a4 h4 a5 h5 a6 h6 a7 h7 a8 h8 a9 h9 a10 h10 a11 h11 a12 h12 a13 h13 hc0 hc1 x0 x1 x2)]
  unfold kernelRun0_A
  dsimp only
  sl_unfold_words
  rw [View.canon_cons_unit_zero (S := S1024x1) hz2]
  simp only [View.readAt_eq_ld, h4.read_unread, h5.read_unread, h6.read_unread, View.ld_unit_zero (S := S1x1024x128) hz3,
    View.readCov_unit_zero (S := S1024x1) _ hz2, View.readCov_unit_zero (S := S1024x64) _ hz2]

theorem sA1 (c : Dev nD) (i : grid0.Coords) (a4 : Memref sig .tc .vmem S1x1024x128 .f32) (h4 : a4.IsWhole) (a5 : Memref sig .tc .vmem S1x1024x128 .f32) (h5 : a5.IsWhole) (a6 : Memref sig .tc .vmem S1x1024x128 .f32) (h6 : a6.IsWhole) (a7 : Memref sig .tc .vmem S1x1024x128 .f32) (h7 : a7.IsWhole) (a8 : Memref sig .tc .vmem S1024x1 .f32) (h8 : a8.IsWhole) (a9 : Memref sig .tc .vmem S1024x1 .f32) (h9 : a9.IsWhole) (a10 : Memref sig .tc .vmem S1024x64 .f32) (h10 : a10.IsWhole) (a11 : Memref sig .tc .vmem S1024x1 .f32) (h11 : a11.IsWhole) (a12 : Memref sig .tc .vmem S1024x1 .f32) (h12 : a12.IsWhole) (a13 : Memref sig .tc .vmem S1024x64 .f32) (h13 : a13.IsWhole) (hc0 : cond0_0 i) (hc1 : ¬cond0_1 i)
    (x0 x1 x2 : Vec F S1x1024x128 .f32) :
    sout0_A_1 c i a4 h4 a5 h5 a6 h6 a7 h7 a8 h8 a9 h9 a10 h10 a11 h11 a12 h12 a13 h13 hc0 hc1 x0 x1 x2 = k0_pay22 (k0_pay21 x0 x1 k0_pay4 k0_pay5) := by
  unfold sout0_A_1
  rw [View.read_writes_eq_canon _ _ _ (scover0_A_1 c i a4 h4 a5 h5 a6 h6 a7 h7 a8 h8 a9 h9 a10 h10 a11 h11 a12 h12 a13 h13 hc0 hc1 x0 x1 x2)]
  unfold kernelRun0_A
  dsimp only
  sl_unfold_words
  rw [View.canon_cons_unit_zero (S := S1024x1) hz2]
  simp only [View.readAt_eq_ld, h4.read_unread, h5.read_unread, h6.read_unread, View.ld_unit_zero (S := S1x1024x128) hz3,
    View.readCov_unit_zero (S := S1024x1) _ hz2, View.readCov_unit_zero (S := S1024x64) _ hz2]

theorem sA2 (c : Dev nD) (i : grid0.Coords) (a4 : Memref sig .tc .vmem S1x1024x128 .f32) (h4 : a4.IsWhole) (a5 : Memref sig .tc .vmem S1x1024x128 .f32) (h5 : a5.IsWhole) (a6 : Memref sig .tc .vmem S1x1024x128 .f32) (h6 : a6.IsWhole) (a7 : Memref sig .tc .vmem S1x1024x128 .f32) (h7 : a7.IsWhole) (a8 : Memref sig .tc .vmem S1024x1 .f32) (h8 : a8.IsWhole) (a9 : Memref sig .tc .vmem S1024x1 .f32) (h9 : a9.IsWhole) (a10 : Memref sig .tc .vmem S1024x64 .f32) (h10 : a10.IsWhole) (a11 : Memref sig .tc .vmem S1024x1 .f32) (h11 : a11.IsWhole) (a12 : Memref sig .tc .vmem S1024x1 .f32) (h12 : a12.IsWhole) (a13 : Memref sig .tc .vmem S1024x64 .f32) (h13 : a13.IsWhole) (hc0 : cond0_0 i) (hc1 : ¬cond0_1 i)
    (x0 x1 x2 : Vec F S1x1024x128 .f32) :
    sout0_A_2 c i a4 h4 a5 h5 a6 h6 a7 h7 a8 h8 a9 h9 a10 h10 a11 h11 a12 h12 a13 h13 hc0 hc1 x0 x1 x2 = k0_pay23 (k0_pay15 x2) (k0_pay19 x0 x1 k0_pay4) (k0_pay20 x0 x1 k0_pay4) k0_pay6 := by
  unfold sout0_A_2
  rw [View.read_writes_eq_canon _ _ _ (scover0_A_2 c i a4 h4 a5 h5 a6 h6 a7 h7 a8 h8 a9 h9 a10 h10 a11 h11 a12 h12 a13 h13 hc0 hc1 x0 x1 x2)]
  unfold kernelRun0_A
  dsimp only
  sl_unfold_words
  rw [View.canon_cons_unit_zero (S := S1024x64) hz2]
  simp only [View.readAt_eq_ld, h4.read_unread, h5.read_unread, h6.read_unread, View.ld_unit_zero (S := S1x1024x128) hz3,
    View.readCov_unit_zero (S := S1024x1) _ hz2, View.readCov_unit_zero (S := S1024x64) _ hz2]

theorem sA3 (c : Dev nD) (i : grid0.Coords) (a4 : Memref sig .tc .vmem S1x1024x128 .f32) (h4 : a4.IsWhole) (a5 : Memref sig .tc .vmem S1x1024x128 .f32) (h5 : a5.IsWhole) (a6 : Memref sig .tc .vmem S1x1024x128 .f32) (h6 : a6.IsWhole) (a7 : Memref sig .tc .vmem S1x1024x128 .f32) (h7 : a7.IsWhole) (a8 : Memref sig .tc .vmem S1024x1 .f32) (h8 : a8.IsWhole) (a9 : Memref sig .tc .vmem S1024x1 .f32) (h9 : a9.IsWhole) (a10 : Memref sig .tc .vmem S1024x64 .f32) (h10 : a10.IsWhole) (a11 : Memref sig .tc .vmem S1024x1 .f32) (h11 : a11.IsWhole) (a12 : Memref sig .tc .vmem S1024x1 .f32) (h12 : a12.IsWhole) (a13 : Memref sig .tc .vmem S1024x64 .f32) (h13 : a13.IsWhole) (hc0 : cond0_0 i) (hc1 : ¬cond0_1 i)
    (x0 x1 x2 : Vec F S1x1024x128 .f32) :
    sout0_A_3 c i a4 h4 a5 h5 a6 h6 a7 h7 a8 h8 a9 h9 a10 h10 a11 h11 a12 h12 a13 h13 hc0 hc1 x0 x1 x2 = k0_pay2 (k0_pay26 (k0_pay13 x0) (k0_pay14 x1) k0_pay7) := by
  unfold sout0_A_3
  rw [View.read_writes_eq_canon _ _ _ (scover0_A_3 c i a4 h4 a5 h5 a6 h6 a7 h7 a8 h8 a9 h9 a10 h10 a11 h11 a12 h12 a13 h13 hc0 hc1 x0 x1 x2)]
  unfold kernelRun0_A
  dsimp only
  sl_unfold_words
  rw [View.canon_cons_unit_zero (S := S1024x1) hz2]
  simp only [View.readAt_eq_ld, h4.read_unread, h5.read_unread, h6.read_unread, View.ld_unit_zero (S := S1x1024x128) hz3,
    View.readCov_unit_zero (S := S1024x1) _ hz2, View.readCov_unit_zero (S := S1024x64) _ hz2]

theorem sA4 (c : Dev nD) (i : grid0.Coords) (a4 : Memref sig .tc .vmem S1x1024x128 .f32) (h4 : a4.IsWhole) (a5 : Memref sig .tc .vmem S1x1024x128 .f32) (h5 : a5.IsWhole) (a6 : Memref sig .tc .vmem S1x1024x128 .f32) (h6 : a6.IsWhole) (a7 : Memref sig .tc .vmem S1x1024x128 .f32) (h7 : a7.IsWhole) (a8 : Memref sig .tc .vmem S1024x1 .f32) (h8 : a8.IsWhole) (a9 : Memref sig .tc .vmem S1024x1 .f32) (h9 : a9.IsWhole) (a10 : Memref sig .tc .vmem S1024x64 .f32) (h10 : a10.IsWhole) (a11 : Memref sig .tc .vmem S1024x1 .f32) (h11 : a11.IsWhole) (a12 : Memref sig .tc .vmem S1024x1 .f32) (h12 : a12.IsWhole) (a13 : Memref sig .tc .vmem S1024x64 .f32) (h13 : a13.IsWhole) (hc0 : cond0_0 i) (hc1 : ¬cond0_1 i)
    (x0 x1 x2 : Vec F S1x1024x128 .f32) :
    sout0_A_4 c i a4 h4 a5 h5 a6 h6 a7 h7 a8 h8 a9 h9 a10 h10 a11 h11 a12 h12 a13 h13 hc0 hc1 x0 x1 x2 = k0_pay29 (k0_pay13 x0) (k0_pay14 x1) k0_pay7 k0_pay8 := by
  unfold sout0_A_4
  rw [View.read_writes_eq_canon _ _ _ (scover0_A_4 c i a4 h4 a5 h5 a6 h6 a7 h7 a8 h8 a9 h9 a10 h10 a11 h11 a12 h12 a13 h13 hc0 hc1 x0 x1 x2)]
  unfold kernelRun0_A
  dsimp only
  sl_unfold_words
  rw [View.canon_cons_unit_zero (S := S1024x1) hz2]
  simp only [View.readAt_eq_ld, h4.read_unread, h5.read_unread, h6.read_unread, View.ld_unit_zero (S := S1x1024x128) hz3,
    View.readCov_unit_zero (S := S1024x1) _ hz2, View.readCov_unit_zero (S := S1024x64) _ hz2]

theorem sA5 (c : Dev nD) (i : grid0.Coords) (a4 : Memref sig .tc .vmem S1x1024x128 .f32) (h4 : a4.IsWhole) (a5 : Memref sig .tc .vmem S1x1024x128 .f32) (h5 : a5.IsWhole) (a6 : Memref sig .tc .vmem S1x1024x128 .f32) (h6 : a6.IsWhole) (a7 : Memref sig .tc .vmem S1x1024x128 .f32) (h7 : a7.IsWhole) (a8 : Memref sig .tc .vmem S1024x1 .f32) (h8 : a8.IsWhole) (a9 : Memref sig .tc .vmem S1024x1 .f32) (h9 : a9.IsWhole) (a10 : Memref sig .tc .vmem S1024x64 .f32) (h10 : a10.IsWhole) (a11 : Memref sig .tc .vmem S1024x1 .f32) (h11 : a11.IsWhole) (a12 : Memref sig .tc .vmem S1024x1 .f32) (h12 : a12.IsWhole) (a13 : Memref sig .tc .vmem S1024x64 .f32) (h13 : a13.IsWhole) (hc0 : cond0_0 i) (hc1 : ¬cond0_1 i)
    (x0 x1 x2 : Vec F S1x1024x128 .f32) :
    sout0_A_5 c i a4 h4 a5 h5 a6 h6 a7 h7 a8 h8 a9 h9 a10 h10 a11 h11 a12 h12 a13 h13 hc0 hc1 x0 x1 x2 = k0_pay1 (k0_pay16 x2) (k0_pay27 (k0_pay13 x0) (k0_pay14 x1) k0_pay7) (k0_pay30 (k0_pay13 x0) (k0_pay14 x1) k0_pay7) k0_pay9 := by
  unfold sout0_A_5
  rw [View.read_writes_eq_canon _ _ _ (scover0_A_5 c i a4 h4 a5 h5 a6 h6 a7 h7 a8 h8 a9 h9 a10 h10 a11 h11 a12 h12 a13 h13 hc0 hc1 x0 x1 x2)]
  unfold kernelRun0_A
  dsimp only
  sl_unfold_words
  rw [View.canon_cons_unit_zero (S := S1024x64) hz2]
  simp only [View.readAt_eq_ld, h4.read_unread, h5.read_unread, h6.read_unread, View.ld_unit_zero (S := S1x1024x128) hz3,
    View.readCov_unit_zero (S := S1024x1) _ hz2, View.readCov_unit_zero (S := S1024x64) _ hz2]

/-! ## A point with the last key block: one more step, then the division -/

theorem oB (c : Dev nD) (i : grid0.Coords) (a4 : Memref sig .tc .vmem S1x1024x128 .f32) (h4 : a4.IsWhole) (a5 : Memref sig .tc .vmem S1x1024x128 .f32) (h5 : a5.IsWhole) (a6 : Memref sig .tc .vmem S1x1024x128 .f32) (h6 : a6.IsWhole) (a7 : Memref sig .tc .vmem S1x1024x128 .f32) (h7 : a7.IsWhole) (a8 : Memref sig .tc .vmem S1024x1 .f32) (h8 : a8.IsWhole) (a9 : Memref sig .tc .vmem S1024x1 .f32) (h9 : a9.IsWhole) (a10 : Memref sig .tc .vmem S1024x64 .f32) (h10 : a10.IsWhole) (a11 : Memref sig .tc .vmem S1024x1 .f32) (h11 : a11.IsWhole) (a12 : Memref sig .tc .vmem S1024x1 .f32) (h12 : a12.IsWhole) (a13 : Memref sig .tc .vmem S1024x64 .f32) (h13 : a13.IsWhole) (hc0 : ¬cond0_0 i) (hc1 : cond0_1 i)
    (x0 x1 x2 : Vec F S1x1024x128 .f32) (xs0 xs1 : Vec F S1024x1 .f32) (xs2 : Vec F S1024x64 .f32)
    (xs3 xs4 : Vec F S1024x1 .f32) (xs5 : Vec F S1024x64 .f32) :
    out0_B_3 c i a4 h4 a5 h5 a6 h6 a7 h7 a8 h8 a9 h9 a10 h10 a11 h11 a12 h12 a13 h13 hc0 hc1 x0 x1 x2 xs0 xs1 xs2 xs3 xs4 xs5
      = k0_pay3 (k0_pay23 (k0_pay15 x2) (k0_pay19 x0 x1 xs0) (k0_pay20 x0 x1 xs0) xs2)
          (k0_pay22 (k0_pay21 x0 x1 xs0 xs1))
          (k0_pay1 (k0_pay16 x2) (k0_pay27 (k0_pay13 x0) (k0_pay14 x1) xs3) (k0_pay30 (k0_pay13 x0) (k0_pay14 x1) xs3) xs5)
          (k0_pay29 (k0_pay13 x0) (k0_pay14 x1) xs3 xs4) := by
  unfold out0_B_3
  rw [View.read_writes_eq_canon _ _ _ (cover0_B_3 c i a4 h4 a5 h5 a6 h6 a7 h7 a8 h8 a9 h9 a10 h10 a11 h11 a12 h12 a13 h13 hc0 hc1 x0 x1 x2 xs0 xs1 xs2 xs3 xs4 xs5)]
  unfold kernelRun0_B
  dsimp only
  sl_unfold_words
  rw [View.canon_unit_zero (S := S1x1024x128) hz3]
  simp only [View.readAt_eq_ld, h4.read_unread, h5.read_unread, h6.read_unread, h8.read_unread, h9.read_unread,
    h10.read_unread, h11.read_unread, h12.read_unread, h13.read_unread, View.ld_unit_zero (S := S1x1024x128) hz3,
    View.ld_unit_zero (S := S1024x1) hz2, View.ld_unit_zero (S := S1024x64) hz2,
    View.readCov_unit_zero (S := S1024x1) _ hz2, View.readCov_unit_zero (S := S1024x64) _ hz2]

end Cert.KernelIdeal.Pieces

end
-- ==== Proof.Blocks.lean ====
/-
  Where a grid point's blocks sit in the arrays. The grid is (batch b, head pair p, query block u, key block w) with
  extents (4, 8, 2, 2), the last axis fastest: point t has b = t / 32, p = t / 4 % 8, u = t / 2 % 2, w = t % 2. The
  query block and the output block of the point are rows u*1024 .. u*1024+1023 and lanes p*128 .. p*128+127 of batch b;
  the key and value blocks are rows w*1024 .. and the same lanes.
-/
import proofs.«119473_j2525440770966_2_alg».proof.Proof.Gen.KernelIdeal.Value
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The printed index maps, decided once over the 128 grid points. -/
theorem idx_facts : ∀ t : Fin cfg0.N,
    win0_0.index t (0 : Fin 3) = t.val / 32 ∧ win0_0.index t (1 : Fin 3) = t.val / 2 % 2 ∧ win0_0.index t (2 : Fin 3) = t.val / 4 % 8
    ∧ win0_1.index t (0 : Fin 3) = t.val / 32 ∧ win0_1.index t (1 : Fin 3) = t.val % 2 ∧ win0_1.index t (2 : Fin 3) = t.val / 4 % 8
    ∧ win0_2.index t (0 : Fin 3) = t.val / 32 ∧ win0_2.index t (1 : Fin 3) = t.val % 2 ∧ win0_2.index t (2 : Fin 3) = t.val / 4 % 8
    ∧ win0_3.index t (0 : Fin 3) = t.val / 32 ∧ win0_3.index t (1 : Fin 3) = t.val / 2 % 2 ∧ win0_3.index t (2 : Fin 3) = t.val / 4 % 8 :=
  (by decide +kernel : ∀ t : Fin grid0.N, _)

theorem lt128 (t : Fin cfg0.N) : t.val < 128 := lt_of_lt_of_eq t.isLt (show cfg0.N = 128 from N_0)

/-- The batch of a point; row r of block u; lane l of head pair p. -/
def batch (t : Fin cfg0.N) : Fin 4 := ⟨t.val / 32, by have := lt128 t; omega⟩
def row (u : ℕ) (hu : u < 2) (r : Fin 1024) : Fin 2048 := ⟨u * 1024 + r.val, by have := r.isLt; omega⟩
def lane (p : ℕ) (hp : p < 8) (l : Fin 128) : Fin 1024 := ⟨p * 128 + l.val, by have := l.isLt; omega⟩

/-- The query block of point t read at (row r, lane l). -/
theorem qblk_apply (c : Dev nD) (t : Fin cfg0.N) (r : Fin 1024) (l : Fin 128) :
    (iblk m c 0 t : Vec F S1x1024x128 .f32) (ix3 (0 : Fin 1) r l)
      = m ((c : Thread nD τ).loc main_arg0)
          (ix3 (batch t) (row (t.val / 2 % 2) (Nat.mod_lt _ (by norm_num)) r) (lane (t.val / 4 % 8) (Nat.mod_lt _ (by norm_num)) l)) := by
  obtain ⟨e0, e1, e2, -⟩ := idx_facts t
  unfold iblk
  rw [View.read_apply]
  show V m c main_arg0 _ = _
  unfold V
  congr 1
  funext a
  apply Fin.ext
  match a with
  | ⟨0, _⟩ => show win0_0.index t (0 : Fin 3) * 1 + 1 * 0 = t.val / 32; rw [e0]; omega
  | ⟨1, _⟩ => show win0_0.index t (1 : Fin 3) * 1024 + 1 * r.val = t.val / 2 % 2 * 1024 + r.val; rw [e1]; omega
  | ⟨2, _⟩ => show win0_0.index t (2 : Fin 3) * 128 + 1 * l.val = t.val / 4 % 8 * 128 + l.val; rw [e2]; omega

/-- The key block of point t read at (row j, lane l). -/
theorem kblk_apply (c : Dev nD) (t : Fin cfg0.N) (j : Fin 1024) (l : Fin 128) :
    (iblk m c 1 t : Vec F S1x1024x128 .f32) (ix3 (0 : Fin 1) j l)
      = m ((c : Thread nD τ).loc main_arg1)
          (ix3 (batch t) (row (t.val % 2) (Nat.mod_lt _ (by norm_num)) j) (lane (t.val / 4 % 8) (Nat.mod_lt _ (by norm_num)) l)) := by
  obtain ⟨-, -, -, e0, e1, e2, -⟩ := idx_facts t
  unfold iblk
  rw [View.read_apply]
  show V m c main_arg1 _ = _
  unfold V
  congr 1
  funext a
  apply Fin.ext
  match a with
  | ⟨0, _⟩ => show win0_1.index t (0 : Fin 3) * 1 + 1 * 0 = t.val / 32; rw [e0]; omega
  | ⟨1, _⟩ => show win0_1.index t (1 : Fin 3) * 1024 + 1 * j.val = t.val % 2 * 1024 + j.val; rw [e1]; omega
  | ⟨2, _⟩ => show win0_1.index t (2 : Fin 3) * 128 + 1 * l.val = t.val / 4 % 8 * 128 + l.val; rw [e2]; omega

/-- The value block of point t read at (row j, lane l). -/
theorem vblk_apply (c : Dev nD) (t : Fin cfg0.N) (j : Fin 1024) (l : Fin 128) :
    (iblk m c 2 t : Vec F S1x1024x128 .f32) (ix3 (0 : Fin 1) j l)
      = m ((c : Thread nD τ).loc main_arg2)
          (ix3 (batch t) (row (t.val % 2) (Nat.mod_lt _ (by norm_num)) j) (lane (t.val / 4 % 8) (Nat.mod_lt _ (by norm_num)) l)) := by
  obtain ⟨-, -, -, -, -, -, e0, e1, e2, -⟩ := idx_facts t
  unfold iblk
  rw [View.read_apply]
  show V m c main_arg2 _ = _
  unfold V
  congr 1
  funext a
  apply Fin.ext
  match a with
  | ⟨0, _⟩ => show win0_2.index t (0 : Fin 3) * 1 + 1 * 0 = t.val / 32; rw [e0]; omega
  | ⟨1, _⟩ => show win0_2.index t (1 : Fin 3) * 1024 + 1 * j.val = t.val % 2 * 1024 + j.val; rw [e1]; omega
  | ⟨2, _⟩ => show win0_2.index t (2 : Fin 3) * 128 + 1 * l.val = t.val / 4 % 8 * 128 + l.val; rw [e2]; omega

/-- Where entry (0, r, l) of point t's output block sits in the result array. -/
theorem oblk_emb (t : Fin cfg0.N) (r : Fin 1024) (l : Fin 128) :
    ((cfg0.win 3).blk t).view.emb (ix3 (0 : Fin 1) r l)
      = ix3 (batch t) (row (t.val / 2 % 2) (Nat.mod_lt _ (by norm_num)) r) (lane (t.val / 4 % 8) (Nat.mod_lt _ (by norm_num)) l) := by
  obtain ⟨-, -, -, -, -, -, -, -, -, e0, e1, e2⟩ := idx_facts t
  funext a
  apply Fin.ext
  match a with
  | ⟨0, _⟩ => show win0_3.index t (0 : Fin 3) * 1 + 1 * 0 = t.val / 32; rw [e0]; omega
  | ⟨1, _⟩ => show win0_3.index t (1 : Fin 3) * 1024 + 1 * r.val = t.val / 2 % 2 * 1024 + r.val; rw [e1]; omega
  | ⟨2, _⟩ => show win0_3.index t (2 : Fin 3) * 128 + 1 * l.val = t.val / 4 % 8 * 128 + l.val; rw [e2]; omega

end Cert.KernelIdeal.Blocks

end
-- ==== Proof.LibOnlineSoftmax.lean ====
/-
  One query row of attention, on the extended reals, in two forms.

  `plain s v` is the softmax-weighted average of the values `v` under the scores `s`:
  with M the largest score and L the sum of exp (s m - M), it is the sum over m of (exp (s m - M) / L) * v m.

  `online s0 v0 s1 v1` is the same average taken over the keys in two blocks with a running maximum, a running
  denominator and a running numerator: a block with scores s and values v turns the triple (m, l, a) into
  (m', exp (m - m') * l + sum_j exp (s j - m'), exp (m - m') * a + sum_j exp (s j - m') * v j) with
  m' = max m (sup_j s j); the run starts at (-inf, 0, 0) and ends with a / l.
-/
import Idealize.ShloMosaic.PureOps.Ideal
import Mathlib.Order.ConditionallyCompleteLattice.Finset
import Mathlib.Analysis.SpecialFunctions.Exp

noncomputable section

namespace Cert.OnlineSoftmax

open Idealize.ShloMosaic

variable {ι κ : Type} [Fintype ι] [Fintype κ]

/-- The softmax-weighted average of `v` under the scores `s`, every key at once. -/
def plain (s v : ι → EReal) : EReal :=
  ∑ m, Ideal.div (Ideal.exp (s m - ⨆ m', s m')) (∑ m', Ideal.exp (s m' - ⨆ m'', s m'')) * v m

/-- The running maximum after a block with scores `s`. -/
def stepM (m : EReal) (s : ι → EReal) : EReal := max m (⨆ j, s j)

/-- The running denominator after a block with scores `s`, rescaled to the new maximum. -/
def stepL (m l : EReal) (s : ι → EReal) : EReal :=
  Ideal.exp (m - stepM m s) * l + ∑ j, Ideal.exp (s j - stepM m s)

/-- The running numerator after a block with scores `s` and values `v`, rescaled to the new maximum. -/
def stepA (m a : EReal) (s v : ι → EReal) : EReal :=
  Ideal.exp (m - stepM m s) * a + ∑ j, Ideal.exp (s j - stepM m s) * v j

/-- The average taken over two blocks of keys, from the empty triple (-inf, 0, 0). -/
def online (s0 v0 : ι → EReal) (s1 v1 : κ → EReal) : EReal :=
  Ideal.div (stepA (stepM ⊥ s0) (stepA ⊥ 0 s0 v0) s1 v1) (stepL (stepM ⊥ s0) (stepL ⊥ 0 s0) s1)

end Cert.OnlineSoftmax

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibOrderFold.lean ====
import Mathlib.Order.CompleteLattice.Basic
import Mathlib.Order.ConditionallyCompleteLattice.Finset
import Mathlib.Data.Finset.Fold

/-!
# Minima and maxima over a finite index type, in a complete linear order

A minimum folded from the top element over a finite index type is the infimum of the family, and a maximum folded
from the bottom element is its supremum. A monotone map commutes with the infimum and with the supremum of a
NONEMPTY finite family (the extremum is attained, so no continuity is asked). An infimum over the first
`B * (k + 1)` positions of `Fin n` is the minimum of the infimum over the first `B * k` positions and the
infimum over the block of `B` positions that follows them; the same for suprema and maxima. Mathlib only.
-/

namespace OrderFold

variable {α : Type*} [CompleteLinearOrder α] {ι : Type*}

/-- A minimum folded from `⊤` over a finite index type is the infimum of the family. -/
theorem fold_min_top [Fintype ι] (f : ι → α) : (Finset.univ : Finset ι).fold min ⊤ f = ⨅ i, f i := by
  refine eq_of_forall_le_iff fun c => ?_
  rw [Finset.le_fold_min, le_iInf_iff]
  simp

/-- A maximum folded from `⊥` over a finite index type is the supremum of the family. -/
theorem fold_max_bot [Fintype ι] (f : ι → α) : (Finset.univ : Finset ι).fold max ⊥ f = ⨆ i, f i := by
  refine eq_of_forall_ge_iff fun c => ?_
  rw [Finset.fold_max_le, iSup_le_iff]
  simp

/-- A monotone map commutes with the infimum of a nonempty finite family: the infimum is one of its members. -/
theorem map_iInf_of_monotone [Finite ι] [Nonempty ι] {q : α → α} (hq : Monotone q) (f : ι → α) :
    q (⨅ i, f i) = ⨅ i, q (f i) := by
  obtain ⟨i0, hi0⟩ := exists_eq_ciInf_of_finite (f := f)
  refine le_antisymm (le_iInf fun i => hq (iInf_le f i)) ?_
  rw [← hi0]
  exact iInf_le (fun i => q (f i)) i0

/-- A monotone map commutes with the supremum of a nonempty finite family. -/
theorem map_iSup_of_monotone [Finite ι] [Nonempty ι] {q : α → α} (hq : Monotone q) (f : ι → α) :
    q (⨆ i, f i) = ⨆ i, q (f i) := by
  obtain ⟨i0, hi0⟩ := exists_eq_ciSup_of_finite (f := f)
  refine le_antisymm ?_ (iSup_le fun i => hq (le_iSup f i))
  rw [← hi0]
  exact le_iSup (fun i => q (f i)) i0

/-- The infimum of `f` over the positions of `Fin n` below `b`. -/
def infBelow {n : ℕ} (f : Fin n → α) (b : ℕ) : α := ⨅ (h : Fin n) (_ : h.val < b), f h

/-- The supremum of `f` over the positions of `Fin n` below `b`. -/
def supBelow {n : ℕ} (f : Fin n → α) (b : ℕ) : α := ⨆ (h : Fin n) (_ : h.val < b), f h

theorem le_infBelow_iff {n : ℕ} (f : Fin n → α) (b : ℕ) (c : α) :
    c ≤ infBelow f b ↔ ∀ h : Fin n, h.val < b → c ≤ f h := by
  unfold infBelow; simp only [le_iInf_iff]

theorem supBelow_le_iff {n : ℕ} (f : Fin n → α) (b : ℕ) (c : α) :
    supBelow f b ≤ c ↔ ∀ h : Fin n, h.val < b → f h ≤ c := by
  unfold supBelow; simp only [iSup_le_iff]

/-- Below position `0` there is nothing: the infimum is `⊤`. -/
theorem infBelow_zero {n : ℕ} (f : Fin n → α) : infBelow f 0 = ⊤ :=
  top_unique ((le_infBelow_iff f 0 ⊤).mpr fun _ h => absurd h (Nat.not_lt_zero _))

/-- Below position `0` there is nothing: the supremum is `⊥`. -/
theorem supBelow_zero {n : ℕ} (f : Fin n → α) : supBelow f 0 = ⊥ :=
  bot_unique ((supBelow_le_iff f 0 ⊥).mpr fun _ h => absurd h (Nat.not_lt_zero _))

/-- Below position `n` is every position. -/
theorem infBelow_all {n : ℕ} (f : Fin n → α) {b : ℕ} (hb : n ≤ b) : infBelow f b = ⨅ h, f h := by
  refine eq_of_forall_le_iff fun c => ?_
  rw [le_infBelow_iff, le_iInf_iff]
  exact ⟨fun H h => H h (lt_of_lt_of_le h.isLt hb), fun H h _ => H h⟩

theorem supBelow_all {n : ℕ} (f : Fin n → α) {b : ℕ} (hb : n ≤ b) : supBelow f b = ⨆ h, f h := by
  refine eq_of_forall_ge_iff fun c => ?_
  rw [supBelow_le_iff, iSup_le_iff]
  exact ⟨fun H h => H h (lt_of_lt_of_le h.isLt hb), fun H h _ => H h⟩

/-- One more block: the infimum below `B * (k + 1)` is the minimum of the infimum below `B * k` and the infimum over
    the block of `B` positions `B * k + r`. -/
theorem min_infBelow_block {n B : ℕ} (f : Fin n → α) (k : ℕ) (hk : B * (k + 1) ≤ n) (g : Fin B → α)
    (hg : ∀ (r : Fin B) (hr : B * k + r.val < n), g r = f ⟨B * k + r.val, hr⟩) :
    min (infBelow f (B * k)) (⨅ r, g r) = infBelow f (B * (k + 1)) := by
  refine eq_of_forall_le_iff fun c => ?_
  rw [le_min_iff, le_infBelow_iff, le_infBelow_iff, le_iInf_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

/-- One more block: the supremum below `B * (k + 1)` is the maximum of the supremum below `B * k` and the supremum
    over the block of `B` positions `B * k + r`. -/
theorem max_supBelow_block {n B : ℕ} (f : Fin n → α) (k : ℕ) (hk : B * (k + 1) ≤ n) (g : Fin B → α)
    (hg : ∀ (r : Fin B) (hr : B * k + r.val < n), g r = f ⟨B * k + r.val, hr⟩) :
    max (supBelow f (B * k)) (⨆ r, g r) = supBelow f (B * (k + 1)) := by
  refine eq_of_forall_ge_iff fun c => ?_
  rw [max_le_iff, supBelow_le_iff, supBelow_le_iff, iSup_le_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

end OrderFold
-- ==== Proof.LibExtremeReduce.lean ====
import Idealize.ShloMosaic.PureOps.Ideal
import Idealize.ShloMosaic.PureOps.Ideal.Laws
import Idealize.ShloMosaic.PureOps.Reduce
import proofs.«119473_j2525440770966_2_alg».proof.Proof.LibOrderFold

/-!
# Minimum and maximum reductions over one axis, read on the extended reals

On the extended reals the f32 words `0x7F800000` and `0xFF800000` denote `⊤` and `⊥`, the neutral elements of `min`
and `max`. So a kernel's lane reduction `vector.multi_reduction <minimumf>` from the `+∞` word over ONE axis, and a
host program's `stablehlo.reduce` with a `minimum` body from the `+∞` word over ONE axis, are both, at a result index
`j`, the infimum of the source over that axis's coordinates (`Shape.Reduces.lift j k`: `j` with coordinate `k` inserted
on the reduced axis); and the `maximumf` / `maximum` ones from the `-∞` word the supremum. The order in which either
program folds does not appear.
-/

noncomputable section

namespace Idealize.ShloMosaic.ExtremeReduce

open Idealize.ShloMosaic

/-- The f32 word of `+∞` denotes `⊤`. -/
theorem ofBits_posInf : Ideal.ofBits .f32 0x7F800000#32 = ⊤ := by simp [Ideal.ofBits, Ideal.ieee]

/-- The f32 word of `-∞` denotes `⊥`. -/
theorem ofBits_negInf : Ideal.ofBits .f32 0xFF800000#32 = ⊥ := by simp [Ideal.ofBits, Ideal.ieee]

variable {s t : Shape} {a : Fin s.rank}

/-- A lane minimum from the `+∞` word over one axis is the infimum over that axis's coordinates. -/
theorem multiReduction_min_single (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf, OrderFold.fold_min_top]
  rfl

/-- A lane maximum from the `-∞` word over one axis is the supremum over that axis's coordinates. -/
theorem multiReduction_max_single (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf, OrderFold.fold_max_bot]
  rfl

/-- A host reduce with a `minimum` body from the `+∞` word over one axis is the infimum over that axis's coordinates. -/
theorem hostReduce_min_single {u : Shape} (x : FVec Ideal s .f32) (h' : s.ReducesTo [a] t) (h : s.Reduces [a] t)
    (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu j]
  show (Finset.univ : Finset (Fin (s.size a))).fold min (Ideal.ofBits .f32 0x7F800000#32) (x ∘ h.lift j) = _
  rw [ofBits_posInf, OrderFold.fold_min_top]
  rfl

/-- A host reduce with a `maximum` body from the `-∞` word over one axis is the supremum over that axis's coordinates. -/
theorem hostReduce_max_single {u : Shape} (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu j]
  show (Finset.univ : Finset (Fin (s.size a))).fold max (Ideal.ofBits .f32 0xFF800000#32) (x ∘ h.lift j) = _
  rw [ofBits_negInf, OrderFold.fold_max_bot]
  rfl

end Idealize.ShloMosaic.ExtremeReduce

end
-- ==== Proof.LibRowReduce.lean ====
/-
  Reductions along the rows of an [a, b] array, read at a row, on the extended reals.

  A lane sum from the zero word is the sum of the row's entries; a lane maximum from the -∞ word is their supremum;
  and a vector [a] kept as a column [a, 1] and spread over b columns reads, at (p, q), the vector at p.  The source
  index over row p with column k inserted is (p, k).
-/
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout
import proofs.«119473_j2525440770966_2_alg».proof.Proof.LibKeepdims
import proofs.«119473_j2525440770966_2_alg».proof.Proof.LibExtremeReduce

noncomputable section

namespace Cert.LibRowReduce

open Idealize.ShloMosaic Idealize.ShloMosaic.ValueIdx

variable {a b : Nat}

/-- Over row p of an [a, b] array, the index with column k inserted is (p, k). -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A lane sum along the rows, from the zero word, at row p: the sum of the row. -/
theorem rowSum_apply (src : FVec Ideal ⟨2, ![a, b]⟩ .f32) (h : (⟨2, ![a, b]⟩ : Shape).Reduces [1] ⟨1, ![a]⟩) (p : Fin a) :
    multiReduction .add [1] ⟨1, ![a]⟩ src 0x00000000#32 h (.inl rfl) rfl (ix1 p) = ∑ q : Fin b, src (ix2 p q) :=
  (Ideal.multiReduction_add_single src 0x00000000#32 h (.inl rfl) rfl (ix1 p)).trans
    (Finset.sum_congr rfl fun k _ => congrArg src (lift_row h p k))

/-- A lane maximum along the rows, from the -∞ word, at row p: the supremum of the row. -/
theorem rowMax_apply (src : FVec Ideal ⟨2, ![a, b]⟩ .f32) (h : (⟨2, ![a, b]⟩ : Shape).Reduces [1] ⟨1, ![a]⟩) (p : Fin a) :
    multiReduction .maximumf [1] ⟨1, ![a]⟩ src 0xFF800000#32 h (.inl rfl) rfl (ix1 p) = ⨆ q : Fin b, src (ix2 p q) :=
  (ExtremeReduce.multiReduction_max_single src h (.inl rfl) rfl (ix1 p)).trans
    (iSup_congr fun k => congrArg src (lift_row h p k))

/-- A vector [a] kept as a column [a, 1] and spread over b columns reads, at (p, q), the vector at p. -/
theorem column_apply {α : Type} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ v h1) h2 (ix2 p q) = v (ix1 p) :=
  (LibKeepdims.broadcastTo_a1_ab_apply _ h2 p q).trans (LibKeepdims.shapeCast_a_a1_apply v h1 p 0)

end Cert.LibRowReduce

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibGramNorms.lean ====
/-
  Squared row norms and the Gram product of two matrices, read at an index on the extended reals.

  For matrices `a : [M, K]` and `b : [N, K]`, at the ideal values:
  • a sum of an `[a, b]` array along its last axis holds at `p` the sum over `f` of the array at `(p, f)`;
  • the squared norms of the rows of `a`, kept as a column `[M, 1]` and stretched over `N` columns, hold at
    `(p, f)` the sum over `d` of `a (p, d) · a (p, d)`, whatever the column `f`;
  • the squared norms of the rows of `b`, kept as a column `[N, 1]`, transposed to a row `[1, N]` and stretched
    over `M` rows, hold at `(p, f)` the sum over `d` of `b (f, d) · b (f, d)`, whatever the row `p`;
  • the product of `a` with the transpose of `b`, accumulated into zero, holds at `(p, f)` the inner product of
    row `p` of `a` with row `f` of `b`: the Gram matrix of the two families of rows.
  Each is a chain of layout reads (a cast keeps the row-major position, a broadcast reads coordinate 0 on a unit
  axis, a transpose swaps the two coordinates) ending in a `Fin`-indexed sum.
-/
import Idealize.ShloMosaic.PureOps.Ideal.Laws
import Idealize.ShloMosaic.Lib.ValueIdx
import Idealize.ShloMosaic.Lib.ValueLayout
import proofs.«119473_j2525440770966_2_alg».proof.Proof.LibKeepdims
import proofs.«119473_j2525440770966_2_alg».proof.Proof.LibInnerProducts

noncomputable section

namespace Cert.LibGramNorms

open Idealize.ShloMosaic Idealize.ShloMosaic.ValueIdx
open scoped BigOperators

/-- A float sum of an `[a, b]` array along its last axis is, at `p`, the sum over `f` of the array at `(p, f)`. -/
theorem row_sum_apply {a b : ℕ} {φ : FTy} (x : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ x acc h hφ hacc (ix1 p) = ∑ f : Fin b, x (ix2 p f) := by
  refine (Ideal.multiReduction_add_single x acc h hφ hacc (ix1 p)).trans ?_
  show ∑ f : Fin b, x (h.lift (ix1 p) f) = ∑ f : Fin b, x (ix2 p f)
  refine Finset.sum_congr rfl fun f _ => congrArg x (funext fun ax => Fin.ext ?_)
  match ax with
  | ⟨0, _⟩ => rfl
  | ⟨1, _⟩ => rfl

/-- The squared norms of the rows of `a : [M, K]`, kept as a column and stretched over `N` columns: at `(p, f)` the
    sum over `d` of `a (p, d) · a (p, d)`. -/
theorem sqnorm_column_apply {M K N : ℕ} {φ : FTy} (a : FVec Ideal ⟨2, ![M, K]⟩ φ) (acc : BitVec φ.bits)
    (hr : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (f : Fin N) :
    broadcastTo ⟨2, ![M, N]⟩
        (shapeCast ⟨2, ![M, 1]⟩ (multiReduction .add [1] ⟨1, ![M]⟩ (mulf a a) acc hr hφ hacc) hc) hb (ix2 p f)
      = ∑ d : Fin K, a (ix2 p d) * a (ix2 p d) :=
  ((Cert.LibKeepdims.broadcastTo_a1_ab_apply _ hb p f).trans
      (Cert.LibKeepdims.shapeCast_a_a1_apply _ hc p (0 : Fin 1))).trans
    (row_sum_apply (mulf a a) acc hr hφ hacc p)

/-- The squared norms of the rows of `b : [N, K]`, kept as a column, transposed to a row and stretched over `M` rows:
    at `(p, f)` the sum over `d` of `b (f, d) · b (f, d)`. -/
theorem sqnorm_row_apply {M K N : ℕ} {φ : FTy} (b : FVec Ideal ⟨2, ![N, K]⟩ φ) (acc : BitVec φ.bits)
    (hr : (⟨2, ![N, K]⟩ : Shape).Reduces [1] ⟨1, ![N]⟩) (hφ : FKind.Formats φ) (hacc : acc = FKind.add.neutral φ hφ)
    (hc : (⟨1, ![N]⟩ : Shape).ShapeCasts ⟨2, ![N, 1]⟩) (ht : (⟨2, ![N, 1]⟩ : Shape).Transposes [1, 0] ⟨2, ![1, N]⟩)
    (hb : (⟨2, ![1, N]⟩ : Shape).Broadcasts ⟨2, ![M, N]⟩) (p : Fin M) (f : Fin N) :
    broadcastTo ⟨2, ![M, N]⟩
        (transpose ⟨2, ![1, N]⟩ [1, 0]
          (shapeCast ⟨2, ![N, 1]⟩ (multiReduction .add [1] ⟨1, ![N]⟩ (mulf b b) acc hr hφ hacc) hc) ht) hb (ix2 p f)
      = ∑ d : Fin K, b (ix2 f d) * b (ix2 f d) :=
  (((broadcastTo_1b_ab_apply _ hb p f).trans (transpose_ix2_apply _ ht (0 : Fin 1) f)).trans
      (Cert.LibKeepdims.shapeCast_a_a1_apply _ hc f (0 : Fin 1))).trans
    (row_sum_apply (mulf b b) acc hr hφ hacc f)

/-- The product of `a : [M, K]` with the transpose of `b : [N, K]`, accumulated into zero: at `(p, f)` the inner
    product of row `p` of `a` with row `f` of `b`. `D` is any record of the plain dimension numbers. -/
theorem gram_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![N, K]⟩ φ₂)
    (ht : (⟨2, ![N, K]⟩ : Shape).Transposes [1, 0] ⟨2, ![K, N]⟩) (p : Fin M) (f : Fin N) :
    matmul D prec a (transpose ⟨2, ![K, N]⟩ [1, 0] b ht) (constant (F := Ideal) ⟨2, ![M, N]⟩ .f32 0x00000000#32) (ix2 p f)
      = ∑ d : Fin K, a (ix2 p d) * b (ix2 f d) := by
  refine (Idealize.ShloMosaic.InnerProducts.matmul_zero_apply D hD prec a _ p f).trans ?_
  exact Finset.sum_congr rfl fun d _ => congrArg (a (ix2 p d) * ·) (transpose_ix2_apply b ht d f)

end Cert.LibGramNorms

end
-- ==== Proof.LibConcatPair.lean ====
/-
  Two arrays laid side by side, read at an index.

  A concatenation of two pieces along an axis reads, at an index whose coordinate on that axis is `k`, the first piece at
  `k` when `k` is below the first piece's extent `a`, and otherwise the second piece at `k - a`; the other coordinates pass
  through. Stated here for the two layouts a fused pair of weight matrices and a fused pair of bias vectors have:
  matrices `[n, a]` and `[n, b]` joined along their columns into `[n, c]`, and vectors `[a]` and `[b]` joined into `[c]`.
  (`c = a + b` is part of the hypothesis `h`; the statements never need it spelt out.)
-/
import Idealize.ShloMosaic.Lib.ValueIdx
import Idealize.ShloMosaic.Lib.Pipeline.Value

namespace Idealize.ShloMosaic.ConcatPair

open Idealize.ShloMosaic Idealize.ShloMosaic.ValueIdx

variable {α : Type}

/-- Columns `[0, a)` of `[u | v]` are `u`'s. -/
theorem cols_left {n a b c : ℕ} (u : (⟨2, ![n, a]⟩ : Shape).Idx → α) (v : (⟨2, ![n, b]⟩ : Shape).Idx → α)
    (h : Shape.Concatenates [(⟨2, ![n, a]⟩ : Shape), ⟨2, ![n, b]⟩] ⟨2, ![n, c]⟩ 1)
    (p : Fin n) (k : Fin c) (q : Fin a) (hq : q.val = k.val) :
    concatenate (⟨2, ![n, c]⟩ : Shape) 1 [⟨⟨2, ![n, a]⟩, u⟩, ⟨⟨2, ![n, b]⟩, v⟩] h (ix2 p k) = u (ix2 p q) :=
  concatenate_pair_apply_left 1 u v h (ix2 p k) rfl (ix2 p q) (fun d => by
    match d with
    | ⟨0, _⟩ => rfl
    | ⟨1, _⟩ => exact hq)

/-- Columns `[a, a + b)` of `[u | v]` are `v`'s, shifted by `a`. -/
theorem cols_right {n a b c : ℕ} (u : (⟨2, ![n, a]⟩ : Shape).Idx → α) (v : (⟨2, ![n, b]⟩ : Shape).Idx → α)
    (h : Shape.Concatenates [(⟨2, ![n, a]⟩ : Shape), ⟨2, ![n, b]⟩] ⟨2, ![n, c]⟩ 1)
    (p : Fin n) (k : Fin c) (q : Fin b) (hq : q.val + a = k.val) :
    concatenate (⟨2, ![n, c]⟩ : Shape) 1 [⟨⟨2, ![n, a]⟩, u⟩, ⟨⟨2, ![n, b]⟩, v⟩] h (ix2 p k) = v (ix2 p q) :=
  concatenate_pair_apply_right 1 u v h (ix2 p k) rfl rfl (ix2 p q) (fun d hd => by
    match d with
    | ⟨0, _⟩ => rfl
    | ⟨1, _⟩ => exact absurd rfl hd) hq

/-- Entries `[0, a)` of the joined vector are `u`'s. -/
theorem vec_left {a b c : ℕ} (u : (⟨1, ![a]⟩ : Shape).Idx → α) (v : (⟨1, ![b]⟩ : Shape).Idx → α)
    (h : Shape.Concatenates [(⟨1, ![a]⟩ : Shape), ⟨1, ![b]⟩] ⟨1, ![c]⟩ 0)
    (k : Fin c) (q : Fin a) (hq : q.val = k.val) :
    concatenate (⟨1, ![c]⟩ : Shape) 0 [⟨⟨1, ![a]⟩, u⟩, ⟨⟨1, ![b]⟩, v⟩] h (ix1 k) = u (ix1 q) :=
  concatenate_pair_apply_left 0 u v h (ix1 k) rfl (ix1 q) (fun d => by
    match d with
    | ⟨0, _⟩ => exact hq)

/-- Entries `[a, a + b)` of the joined vector are `v`'s, shifted by `a`. -/
theorem vec_right {a b c : ℕ} (u : (⟨1, ![a]⟩ : Shape).Idx → α) (v : (⟨1, ![b]⟩ : Shape).Idx → α)
    (h : Shape.Concatenates [(⟨1, ![a]⟩ : Shape), ⟨1, ![b]⟩] ⟨1, ![c]⟩ 0)
    (k : Fin c) (q : Fin b) (hq : q.val + a = k.val) :
    concatenate (⟨1, ![c]⟩ : Shape) 0 [⟨⟨1, ![a]⟩, u⟩, ⟨⟨1, ![b]⟩, v⟩] h (ix1 k) = v (ix1 q) :=
  concatenate_pair_apply_right 0 u v h (ix1 k) rfl rfl (ix1 q) (fun d hd => by
    match d with
    | ⟨0, _⟩ => exact absurd rfl hd) hq

end Idealize.ShloMosaic.ConcatPair
-- ==== Proof.RowSteps.lean ====
/-
  One grid point of the kernel handles a block of 1024 queries against a block of 1024 keys for TWO heads packed
  side by side in 128 lanes (lanes 0..63 the first head, lanes 64..127 the second). For each query row r and
  each head the body performs one step of the running softmax: from the running maximum m, denominator l and
  numerator a of the row it forms the scores s j = sum over the head's 64 lanes of (q (r, lane) * 1/8) * k (j, lane),
  the new maximum, and the rescaled denominator and numerator. This module reads the body's arithmetic at an
  index and identifies it with `stepM`, `stepL`, `stepA` of the row, and reads the closing division.
-/
import proofs.«119473_j2525440770966_2_alg».proof.Proof.Gen.KernelIdeal.Skeleton
import proofs.«119473_j2525440770966_2_alg».proof.Proof.LibOnlineSoftmax
import proofs.«119473_j2525440770966_2_alg».proof.Proof.LibKeepdims
import proofs.«119473_j2525440770966_2_alg».proof.Proof.LibRowReduce
import proofs.«119473_j2525440770966_2_alg».proof.Proof.LibInnerProducts
import proofs.«119473_j2525440770966_2_alg».proof.Proof.LibGramNorms
import proofs.«119473_j2525440770966_2_alg».proof.Proof.LibConcatPair
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowSteps

open Cert.KernelIdeal Cert.KernelIdeal.Gen Idealize.ShloMosaic Idealize.ShloMosaic.ValueIdx Cert.OnlineSoftmax

/-- Lane d of the first head, and of the second. -/
def lane0 (d : Fin 64) : Fin 128 := ⟨d.val, by have := d.isLt; omega⟩
def lane1 (d : Fin 64) : Fin 128 := ⟨64 + d.val, by have := d.isLt; omega⟩

/-- The scale 1/8 as the kernel holds it. -/
abbrev eighth : EReal := Ideal.ofBits .f32 0x3E000000#32

/-- The scores of query row r against key row j, for the first head and for the second. -/
def sc0 (x0 x1 : Vec Ideal S1x1024x128 .f32) (r j : Fin 1024) : EReal :=
  ∑ d : Fin 64, (x0 (ix3 (0 : Fin 1) r (lane0 d)) * eighth) * x1 (ix3 (0 : Fin 1) j (lane0 d))
def sc1 (x0 x1 : Vec Ideal S1x1024x128 .f32) (r j : Fin 1024) : EReal :=
  ∑ d : Fin 64, (x0 (ix3 (0 : Fin 1) r (lane1 d)) * eighth) * x1 (ix3 (0 : Fin 1) j (lane1 d))

/-! ## The operands: scaled queries, keys, values, and their head slices -/

theorem pay10_apply (x0 : Vec Ideal S1x1024x128 .f32) (r : Fin 1024) (l : Fin 128) :
    k0_pay10 x0 (ix2 r l) = x0 (ix3 (0 : Fin 1) r l) * eighth := by
  unfold k0_pay10
  show shapeCast S1024x128 x0 _ (ix2 r l) * _ = _
  rw [ValueIdx.shapeCast_1ab_ab_apply]
  rfl

theorem pay11_apply (x1 : Vec Ideal S1x1024x128 .f32) (j : Fin 1024) (l : Fin 128) :
    k0_pay11 x1 (ix2 j l) = x1 (ix3 (0 : Fin 1) j l) := by
  unfold k0_pay11
  show shapeCast S1024x128 x1 _ (ix2 j l) = _
  rw [ValueIdx.shapeCast_1ab_ab_apply]

theorem pay12_apply (x2 : Vec Ideal S1x1024x128 .f32) (j : Fin 1024) (l : Fin 128) :
    k0_pay12 x2 (ix2 j l) = x2 (ix3 (0 : Fin 1) j l) := by
  unfold k0_pay12
  show shapeCast S1024x128 x2 _ (ix2 j l) = _
  rw [ValueIdx.shapeCast_1ab_ab_apply]

theorem pay13_apply (x0 : Vec Ideal S1x1024x128 .f32) (r : Fin 1024) (d : Fin 64) :
    k0_pay13 x0 (ix2 r d) = x0 (ix3 (0 : Fin 1) r (lane1 d)) * eighth := by
  unfold k0_pay13
  rw [ValueIdx.slice2_axis1_apply 64 _ _ r d (lane1 d) rfl, pay10_apply]

theorem pay14_apply (x1 : Vec Ideal S1x1024x128 .f32) (j : Fin 1024) (d : Fin 64) :
    k0_pay14 x1 (ix2 j d) = x1 (ix3 (0 : Fin 1) j (lane1 d)) := by
  unfold k0_pay14
  rw [ValueIdx.slice2_axis1_apply 64 _ _ j d (lane1 d) rfl, pay11_apply]

theorem pay15_apply (x2 : Vec Ideal S1x1024x128 .f32) (j : Fin 1024) (d : Fin 64) :
    k0_pay15 x2 (ix2 j d) = x2 (ix3 (0 : Fin 1) j (lane0 d)) := by
  unfold k0_pay15
  rw [ValueIdx.slice2_axis1_apply 0 _ _ j d (lane0 d) (by show d.val = 0 + d.val; omega), pay12_apply]

theorem pay16_apply (x2 : Vec Ideal S1x1024x128 .f32) (j : Fin 1024) (d : Fin 64) :
    k0_pay16 x2 (ix2 j d) = x2 (ix3 (0 : Fin 1) j (lane1 d)) := by
  unfold k0_pay16
  rw [ValueIdx.slice2_axis1_apply 64 _ _ j d (lane1 d) rfl, pay12_apply]

/-! ## The scores -/

theorem pay17_apply (x0 x1 : Vec Ideal S1x1024x128 .f32) (r j : Fin 1024) :
    k0_pay17 x0 x1 (ix2 r j) = sc0 x0 x1 r j := by
  unfold k0_pay17 sc0
  rw [Cert.LibGramNorms.gram_apply dot_S1024x64_S64x1024_S1024x1024_1_0_0_1_n_n rfl]
  refine Finset.sum_congr rfl fun d _ => ?_
  rw [ValueIdx.slice2_axis1_apply 0 _ _ r d (lane0 d) (by show d.val = 0 + d.val; omega),
    ValueIdx.slice2_axis1_apply 0 _ _ j d (lane0 d) (by show d.val = 0 + d.val; omega), pay10_apply, pay11_apply]

theorem pay25_apply (x0 x1 : Vec Ideal S1x1024x128 .f32) (r j : Fin 1024) :
    k0_pay25 (k0_pay13 x0) (k0_pay14 x1) (ix2 r j) = sc1 x0 x1 r j := by
  unfold k0_pay25 sc1
  rw [Cert.LibGramNorms.gram_apply dot_S1024x64_S64x1024_S1024x1024_1_0_0_1_n_n rfl]
  refine Finset.sum_congr rfl fun d _ => ?_
  rw [pay13_apply, pay14_apply]

/-- An exponential at an index is the exponential of the element. -/
theorem exp_apply {s : Shape} {φ : FTy} (a : FVec Ideal s φ) (i : s.Idx) : exp a i = Ideal.exp (a i) := rfl

/-! ## One step of the running softmax, first head -/

theorem pay18_apply (x0 x1 : Vec Ideal S1x1024x128 .f32) (m : Vec Ideal S1024x1 .f32) (r : Fin 1024) :
    k0_pay18 x0 x1 m (ix2 r (0 : Fin 1)) = stepM (m (ix2 r (0 : Fin 1))) (sc0 x0 x1 r) := by
  have e : k0_pay18 x0 x1 m = maximumf m (shapeCast S1024x1 (multiReduction .maximumf [1] S1024 (k0_pay17 x0 x1) 0xFF800000#32 reduces_S1024x1024_S1024 (.inl rfl) rfl) shapeCasts_S1024_S1024x1) := rfl
  rw [e, maximumf_apply, Cert.LibKeepdims.shapeCast_a_a1_apply, Cert.LibRowReduce.rowMax_apply]
  unfold stepM
  exact congrArg (max _) (iSup_congr fun j => pay17_apply x0 x1 r j)

theorem pay19_apply (x0 x1 : Vec Ideal S1x1024x128 .f32) (m : Vec Ideal S1024x1 .f32) (r : Fin 1024) :
    k0_pay19 x0 x1 m (ix2 r (0 : Fin 1))
      = Ideal.exp (m (ix2 r (0 : Fin 1)) - stepM (m (ix2 r (0 : Fin 1))) (sc0 x0 x1 r)) := by
  have e : k0_pay19 x0 x1 m = exp (subf m (k0_pay18 x0 x1 m)) := rfl
  rw [e, exp_apply, subf_apply, pay18_apply]

theorem pay20_apply (x0 x1 : Vec Ideal S1x1024x128 .f32) (m : Vec Ideal S1024x1 .f32) (r j : Fin 1024) :
    k0_pay20 x0 x1 m (ix2 r j) = Ideal.exp (sc0 x0 x1 r j - stepM (m (ix2 r (0 : Fin 1))) (sc0 x0 x1 r)) := by
  have e : k0_pay20 x0 x1 m = exp (subf (k0_pay17 x0 x1) (broadcastTo S1024x1024 (k0_pay18 x0 x1 m) broadcasts_S1024x1_S1024x1024)) := rfl
  rw [e, exp_apply, subf_apply, Cert.LibKeepdims.broadcastTo_a1_ab_apply, pay17_apply, pay18_apply]

theorem pay21_apply (x0 x1 : Vec Ideal S1x1024x128 .f32) (m l : Vec Ideal S1024x1 .f32) (r : Fin 1024) :
    k0_pay21 x0 x1 m l (ix2 r (0 : Fin 1))
      = stepL (m (ix2 r (0 : Fin 1))) (l (ix2 r (0 : Fin 1))) (sc0 x0 x1 r) := by
  have e : k0_pay21 x0 x1 m l = addf (mulf (k0_pay19 x0 x1 m) l) (shapeCast S1024x1 (multiReduction .add [1] S1024 (k0_pay20 x0 x1 m) 0x00000000#32 reduces_S1024x1024_S1024 (.inl rfl) rfl) shapeCasts_S1024_S1024x1) := rfl
  rw [e, addf_apply, mulf_apply, pay19_apply, Cert.LibKeepdims.shapeCast_a_a1_apply, Cert.LibRowReduce.rowSum_apply]
  unfold stepL
  exact congrArg (_ + ·) (Finset.sum_congr rfl fun j _ => pay20_apply x0 x1 m r j)

theorem pay23_apply (x0 x1 x2 : Vec Ideal S1x1024x128 .f32) (m : Vec Ideal S1024x1 .f32)
    (a : Vec Ideal S1024x64 .f32) (r : Fin 1024) (d : Fin 64) :
    k0_pay23 (k0_pay15 x2) (k0_pay19 x0 x1 m) (k0_pay20 x0 x1 m) a (ix2 r d)
      = stepA (m (ix2 r (0 : Fin 1))) (a (ix2 r d)) (sc0 x0 x1 r) (fun j => x2 (ix3 (0 : Fin 1) j (lane0 d))) := by
  have e : k0_pay23 (k0_pay15 x2) (k0_pay19 x0 x1 m) (k0_pay20 x0 x1 m) a
      = shapeCast S1024x64 (addf (mulf (broadcastTo S1024x64 (k0_pay19 x0 x1 m) broadcasts_S1024x1_S1024x64) a)
          (matmul dot_S1024x1024_S1024x64_S1024x64_1_0_0_1_n_n none (truncf .bf16 (k0_pay20 x0 x1 m) bitsLt_bf16_f32) (k0_pay15 x2) (constant (F := Ideal) S1024x64 .f32 0x00000000#32)))
          shapeCasts_S1024x64_S1024x64 := rfl
  rw [e, shapeCast_self, addf_apply, mulf_apply, Cert.LibKeepdims.broadcastTo_a1_ab_apply, pay19_apply,
    InnerProducts.matmul_zero_apply dot_S1024x1024_S1024x64_S1024x64_1_0_0_1_n_n rfl]
  unfold stepA
  refine congrArg (_ + ·) (Finset.sum_congr rfl fun j _ => ?_)
  rw [truncf_apply, pay20_apply, pay15_apply]

/-! ## One step of the running softmax, second head -/

theorem pay26_apply (x0 x1 : Vec Ideal S1x1024x128 .f32) (m : Vec Ideal S1024x1 .f32) (r : Fin 1024) :
    k0_pay26 (k0_pay13 x0) (k0_pay14 x1) m (ix2 r (0 : Fin 1)) = stepM (m (ix2 r (0 : Fin 1))) (sc1 x0 x1 r) := by
  have e : k0_pay26 (k0_pay13 x0) (k0_pay14 x1) m = maximumf m (shapeCast S1024x1 (multiReduction .maximumf [1] S1024 (k0_pay25 (k0_pay13 x0) (k0_pay14 x1)) 0xFF800000#32 reduces_S1024x1024_S1024 (.inl rfl) rfl) shapeCasts_S1024_S1024x1) := rfl
  rw [e, maximumf_apply, Cert.LibKeepdims.shapeCast_a_a1_apply, Cert.LibRowReduce.rowMax_apply]
  unfold stepM
  exact congrArg (max _) (iSup_congr fun j => pay25_apply x0 x1 r j)

theorem pay27_apply (x0 x1 : Vec Ideal S1x1024x128 .f32) (m : Vec Ideal S1024x1 .f32) (r : Fin 1024) :
    k0_pay27 (k0_pay13 x0) (k0_pay14 x1) m (ix2 r (0 : Fin 1))
      = Ideal.exp (m (ix2 r (0 : Fin 1)) - stepM (m (ix2 r (0 : Fin 1))) (sc1 x0 x1 r)) := by
  have e : k0_pay27 (k0_pay13 x0) (k0_pay14 x1) m = exp (subf m (k0_pay26 (k0_pay13 x0) (k0_pay14 x1) m)) := rfl
  rw [e, exp_apply, subf_apply, pay26_apply]

theorem pay28_apply (x0 x1 : Vec Ideal S1x1024x128 .f32) (m : Vec Ideal S1024x1 .f32) (r j : Fin 1024) :
    k0_pay28 (k0_pay13 x0) (k0_pay14 x1) m (ix2 r j) = Ideal.exp (sc1 x0 x1 r j - stepM (m (ix2 r (0 : Fin 1))) (sc1 x0 x1 r)) := by
  have e : k0_pay28 (k0_pay13 x0) (k0_pay14 x1) m = exp (subf (k0_pay25 (k0_pay13 x0) (k0_pay14 x1)) (broadcastTo S1024x1024 (k0_pay26 (k0_pay13 x0) (k0_pay14 x1) m) broadcasts_S1024x1_S1024x1024)) := rfl
  rw [e, exp_apply, subf_apply, Cert.LibKeepdims.broadcastTo_a1_ab_apply, pay25_apply, pay26_apply]

theorem pay29_apply (x0 x1 : Vec Ideal S1x1024x128 .f32) (m l : Vec Ideal S1024x1 .f32) (r : Fin 1024) :
    k0_pay29 (k0_pay13 x0) (k0_pay14 x1) m l (ix2 r (0 : Fin 1))
      = stepL (m (ix2 r (0 : Fin 1))) (l (ix2 r (0 : Fin 1))) (sc1 x0 x1 r) := by
  have e : k0_pay29 (k0_pay13 x0) (k0_pay14 x1) m l = shapeCast S1024x1 (addf (mulf (k0_pay27 (k0_pay13 x0) (k0_pay14 x1) m) l) (shapeCast S1024x1 (multiReduction .add [1] S1024 (k0_pay28 (k0_pay13 x0) (k0_pay14 x1) m) 0x00000000#32 reduces_S1024x1024_S1024 (.inl rfl) rfl) shapeCasts_S1024_S1024x1)) shapeCasts_S1024x1_S1024x1 := rfl
  rw [e, shapeCast_self, addf_apply, mulf_apply, pay27_apply, Cert.LibKeepdims.shapeCast_a_a1_apply, Cert.LibRowReduce.rowSum_apply]
  unfold stepL
  exact congrArg (_ + ·) (Finset.sum_congr rfl fun j _ => pay28_apply x0 x1 m r j)

theorem pay1_apply (x0 x1 x2 : Vec Ideal S1x1024x128 .f32) (m : Vec Ideal S1024x1 .f32)
    (a : Vec Ideal S1024x64 .f32) (r : Fin 1024) (d : Fin 64) :
    k0_pay1 (k0_pay16 x2) (k0_pay27 (k0_pay13 x0) (k0_pay14 x1) m) (k0_pay30 (k0_pay13 x0) (k0_pay14 x1) m) a (ix2 r d)
      = stepA (m (ix2 r (0 : Fin 1))) (a (ix2 r d)) (sc1 x0 x1 r) (fun j => x2 (ix3 (0 : Fin 1) j (lane1 d))) := by
  have e : k0_pay1 (k0_pay16 x2) (k0_pay27 (k0_pay13 x0) (k0_pay14 x1) m) (k0_pay30 (k0_pay13 x0) (k0_pay14 x1) m) a
      = shapeCast S1024x64 (addf (mulf (broadcastTo S1024x64 (k0_pay27 (k0_pay13 x0) (k0_pay14 x1) m) broadcasts_S1024x1_S1024x64) a)
          (matmul dot_S1024x1024_S1024x64_S1024x64_1_0_0_1_n_n none (k0_pay30 (k0_pay13 x0) (k0_pay14 x1) m) (k0_pay16 x2) (constant (F := Ideal) S1024x64 .f32 0x00000000#32)))
          shapeCasts_S1024x64_S1024x64 := rfl
  rw [e, shapeCast_self, addf_apply, mulf_apply, Cert.LibKeepdims.broadcastTo_a1_ab_apply, pay27_apply,
    InnerProducts.matmul_zero_apply dot_S1024x1024_S1024x64_S1024x64_1_0_0_1_n_n rfl]
  unfold stepA
  refine congrArg (_ + ·) (Finset.sum_congr rfl fun j _ => ?_)
  have e30 : k0_pay30 (k0_pay13 x0) (k0_pay14 x1) m = truncf .bf16 (k0_pay28 (k0_pay13 x0) (k0_pay14 x1) m) bitsLt_bf16_f32 := rfl
  rw [e30, truncf_apply, pay28_apply, pay16_apply]
/-! ## The stores that only pass a value on, and the empty triple -/

theorem pay22_eq (v : FVec Ideal S1024x1 .f32) : k0_pay22 v = v := by unfold k0_pay22; exact shapeCast_self _ _
theorem pay24_eq (v : FVec Ideal S1024x1 .f32) : k0_pay24 v = v := by unfold k0_pay24; exact shapeCast_self _ _
theorem pay2_eq (v : FVec Ideal S1024x1 .f32) : k0_pay2 v = v := by unfold k0_pay2; exact shapeCast_self _ _

theorem negInf_word : Ideal.ofBits .f32 0xFF800000#32 = ⊥ := by simp [Ideal.ofBits, Ideal.ieee]

theorem pay4_apply (i : S1024x1.Idx) : k0_pay4 (F := Ideal) i = ⊥ := by
  unfold k0_pay4; rw [shapeCast_self]; exact negInf_word
theorem pay7_apply (i : S1024x1.Idx) : k0_pay7 (F := Ideal) i = ⊥ := by
  unfold k0_pay7; rw [shapeCast_self]; exact negInf_word
theorem pay5_apply (i : S1024x1.Idx) : k0_pay5 (F := Ideal) i = 0 := by
  unfold k0_pay5; rw [shapeCast_self]; exact Ideal.ofBits_zero_f32
theorem pay8_apply (i : S1024x1.Idx) : k0_pay8 (F := Ideal) i = 0 := by
  unfold k0_pay8; rw [shapeCast_self]; exact Ideal.ofBits_zero_f32
theorem pay6_apply (i : S1024x64.Idx) : k0_pay6 (F := Ideal) i = 0 := by
  unfold k0_pay6; rw [shapeCast_self]; exact Ideal.ofBits_zero_f32
theorem pay9_apply (i : S1024x64.Idx) : k0_pay9 (F := Ideal) i = 0 := by
  unfold k0_pay9; rw [shapeCast_self]; exact Ideal.ofBits_zero_f32

/-! ## The closing division and the two heads side by side -/

theorem pay3_eq (a0 : Vec Ideal S1024x64 .f32) (l0 : Vec Ideal S1024x1 .f32) (a1 : Vec Ideal S1024x64 .f32)
    (l1 : Vec Ideal S1024x1 .f32) :
    k0_pay3 a0 l0 a1 l1
      = shapeCast S1x1024x128 (concatenate S1024x128 1
          [⟨S1024x64, divf a0 (broadcastTo S1024x64 l0 broadcasts_S1024x1_S1024x64)⟩,
           ⟨S1024x64, divf a1 (broadcastTo S1024x64 l1 broadcasts_S1024x1_S1024x64)⟩]
          concatenates_S1024x64_S1024x64_S1024x128_d1) shapeCasts_S1024x128_S1x1024x128 := rfl

theorem pay3_apply_head0 (a0 : Vec Ideal S1024x64 .f32) (l0 : Vec Ideal S1024x1 .f32) (a1 : Vec Ideal S1024x64 .f32)
    (l1 : Vec Ideal S1024x1 .f32) (r : Fin 1024) (d : Fin 64) :
    k0_pay3 a0 l0 a1 l1 (ix3 (0 : Fin 1) r (lane0 d)) = Ideal.div (a0 (ix2 r d)) (l0 (ix2 r (0 : Fin 1))) := by
  rw [pay3_eq, ValueIdx.shapeCast_ab_1ab_apply, ConcatPair.cols_left _ _ _ r (lane0 d) d rfl, divf_apply,
    Cert.LibKeepdims.broadcastTo_a1_ab_apply]

theorem pay3_apply_head1 (a0 : Vec Ideal S1024x64 .f32) (l0 : Vec Ideal S1024x1 .f32) (a1 : Vec Ideal S1024x64 .f32)
    (l1 : Vec Ideal S1024x1 .f32) (r : Fin 1024) (d : Fin 64) :
    k0_pay3 a0 l0 a1 l1 (ix3 (0 : Fin 1) r (lane1 d)) = Ideal.div (a1 (ix2 r d)) (l1 (ix2 r (0 : Fin 1))) := by
  rw [pay3_eq, ValueIdx.shapeCast_ab_1ab_apply,
    ConcatPair.cols_right _ _ _ r (lane1 d) d (by show d.val + 64 = 64 + d.val; omega), divf_apply,
    Cert.LibKeepdims.broadcastTo_a1_ab_apply]

/-! ## Two points in a row: the output block is the two-block average -/

/-- First head: after a point with the first key block (blocks x0a, x1a, x2a) and a point with the last
    (x0b, x1b, x2b), the output block at row r, lane d of the head, is the average taken over the two blocks. -/
theorem out_head0 (x0a x1a x2a x0b x1b x2b : Vec Ideal S1x1024x128 .f32) (a1 : Vec Ideal S1024x64 .f32)
    (l1 : Vec Ideal S1024x1 .f32) (r : Fin 1024) (d : Fin 64) :
    k0_pay3
        (k0_pay23 (k0_pay15 x2b) (k0_pay19 x0b x1b (k0_pay24 (k0_pay18 x0a x1a (k0_pay4 (F := Ideal)))))
          (k0_pay20 x0b x1b (k0_pay24 (k0_pay18 x0a x1a (k0_pay4 (F := Ideal)))))
          (k0_pay23 (k0_pay15 x2a) (k0_pay19 x0a x1a (k0_pay4 (F := Ideal))) (k0_pay20 x0a x1a (k0_pay4 (F := Ideal))) (k0_pay6 (F := Ideal))))
        (k0_pay22 (k0_pay21 x0b x1b (k0_pay24 (k0_pay18 x0a x1a (k0_pay4 (F := Ideal)))) (k0_pay22 (k0_pay21 x0a x1a (k0_pay4 (F := Ideal)) (k0_pay5 (F := Ideal))))))
        a1 l1 (ix3 (0 : Fin 1) r (lane0 d))
      = online (sc0 x0a x1a r) (fun j => x2a (ix3 (0 : Fin 1) j (lane0 d)))
          (sc0 x0b x1b r) (fun j => x2b (ix3 (0 : Fin 1) j (lane0 d))) := by
  rw [pay3_apply_head0, pay23_apply, pay22_eq, pay21_apply, pay24_eq, pay18_apply, pay22_eq, pay21_apply, pay23_apply,
    pay4_apply, pay5_apply, pay6_apply]
  rfl

/-- Second head: the same, on lanes 64..127. -/
theorem out_head1 (x0a x1a x2a x0b x1b x2b : Vec Ideal S1x1024x128 .f32) (a0 : Vec Ideal S1024x64 .f32)
    (l0 : Vec Ideal S1024x1 .f32) (r : Fin 1024) (d : Fin 64) :
    k0_pay3 a0 l0
        (k0_pay1 (k0_pay16 x2b) (k0_pay27 (k0_pay13 x0b) (k0_pay14 x1b) (k0_pay2 (k0_pay26 (k0_pay13 x0a) (k0_pay14 x1a) (k0_pay7 (F := Ideal)))))
          (k0_pay30 (k0_pay13 x0b) (k0_pay14 x1b) (k0_pay2 (k0_pay26 (k0_pay13 x0a) (k0_pay14 x1a) (k0_pay7 (F := Ideal)))))
          (k0_pay1 (k0_pay16 x2a) (k0_pay27 (k0_pay13 x0a) (k0_pay14 x1a) (k0_pay7 (F := Ideal))) (k0_pay30 (k0_pay13 x0a) (k0_pay14 x1a) (k0_pay7 (F := Ideal))) (k0_pay9 (F := Ideal))))
        (k0_pay29 (k0_pay13 x0b) (k0_pay14 x1b) (k0_pay2 (k0_pay26 (k0_pay13 x0a) (k0_pay14 x1a) (k0_pay7 (F := Ideal))))
          (k0_pay29 (k0_pay13 x0a) (k0_pay14 x1a) (k0_pay7 (F := Ideal)) (k0_pay8 (F := Ideal))))
        (ix3 (0 : Fin 1) r (lane1 d))
      = online (sc1 x0a x1a r) (fun j => x2a (ix3 (0 : Fin 1) j (lane1 d)))
          (sc1 x0b x1b r) (fun j => x2b (ix3 (0 : Fin 1) j (lane1 d))) := by
  rw [pay3_apply_head1, pay1_apply, pay29_apply, pay2_eq, pay26_apply, pay29_apply, pay1_apply,
    pay7_apply, pay8_apply, pay9_apply]
  rfl

end Cert.KernelIdeal.RowSteps

end
-- ==== Proof.Spec.lean ====
/-
  Multi-head attention on a [4, 2048, 1024] array of 16 heads of width 64, as one function of the three
  argument arrays: channel h*64 + d of token n in batch b is the softmax-weighted average, over the 2048
  keys m of the same batch and head, of v at (b, m, h*64 + d), under the scores
  (sum over d' of q (b, n, h*64 + d') * k (b, m, h*64 + d')) / sqrt 64.
-/
import Idealize.ShloMosaic.Lib.ValueIdx
import proofs.«119473_j2525440770966_2_alg».proof.Proof.LibOnlineSoftmax

noncomputable section

namespace Cert.Spec

open Idealize.ShloMosaic Idealize.ShloMosaic.ValueIdx

/-- The three arguments and the result: batch, token, channel. -/
abbrev S3 : Shape := ⟨3, ![4, 2048, 1024]⟩

/-- Channel d of head h. -/
def chan (h : Fin 16) (d : Fin 64) : Fin 1024 :=
  ⟨h.val * 64 + d.val, by have := h.isLt; have := d.isLt; omega⟩

/-- The score of key m for query n in batch b and head h. -/
def score (q k : S3.Idx → EReal) (b : Fin 4) (h : Fin 16) (n m : Fin 2048) : EReal :=
  Ideal.div (∑ d : Fin 64, q (ix3 b n (chan h d)) * k (ix3 b m (chan h d)))
    (Ideal.sqrt (Ideal.ofBits .f32 0x42800000#32))

/-- Attention at batch b, token n, head h, channel d of the head. -/
def attnAt (q k v : S3.Idx → EReal) (b : Fin 4) (n : Fin 2048) (h : Fin 16) (d : Fin 64) : EReal :=
  OnlineSoftmax.plain (fun m : Fin 2048 => score q k b h n m) (fun m : Fin 2048 => v (ix3 b m (chan h d)))

/-- Attention as a whole array. -/
def attn (q k v : S3.Idx → EReal) : S3.Idx → EReal := fun i =>
  attnAt q k v (i 0) (i 1) ⟨(i 2).val / 64, by have : (i 2).val < 1024 := (i 2).isLt; omega⟩
    ⟨(i 2).val % 64, Nat.mod_lt _ (by norm_num)⟩

/-- Every index is (b, n, h*64 + d). -/
theorem idx_cases (i : S3.Idx) : ∃ (b : Fin 4) (n : Fin 2048) (h : Fin 16) (d : Fin 64), i = ix3 b n (chan h d) := by
  refine ⟨i 0, i 1, ⟨(i 2).val / 64, by have : (i 2).val < 1024 := (i 2).isLt; omega⟩,
    ⟨(i 2).val % 64, Nat.mod_lt _ (by norm_num)⟩, ?_⟩
  funext a
  match a with
  | ⟨0, _⟩ => rfl
  | ⟨1, _⟩ => rfl
  | ⟨2, _⟩ => exact Fin.ext (by show (i 2).val = (i 2).val / 64 * 64 + (i 2).val % 64; omega)

theorem attn_apply (q k v : S3.Idx → EReal) (b : Fin 4) (n : Fin 2048) (h : Fin 16) (d : Fin 64) :
    attn q k v (ix3 b n (chan h d)) = attnAt q k v b n h d := by
  have hh : (⟨((ix3 b n (chan h d) : S3.Idx) 2).val / 64, by
      have : ((ix3 b n (chan h d) : S3.Idx) 2).val < 1024 := ((ix3 b n (chan h d) : S3.Idx) 2).isLt; omega⟩ : Fin 16) = h :=
    Fin.ext (by show (h.val * 64 + d.val) / 64 = h.val; have := d.isLt; omega)
  have hd : (⟨((ix3 b n (chan h d) : S3.Idx) 2).val % 64, Nat.mod_lt _ (by norm_num)⟩ : Fin 64) = d :=
    Fin.ext (by show (h.val * 64 + d.val) % 64 = d.val; have := d.isLt; omega)
  show attnAt q k v _ _ _ _ = _
  rw [hh, hd]

end Cert.Spec

end
-- ==== Proof.LibOnlineSoftmaxLaw.lean ====
/-
  Laws of the two forms of one query row of attention.

  1. Relabelling: the plain softmax-weighted average does not depend on how the keys are indexed.
  2. The two-block law: on real scores and values, with both blocks nonempty, the running computation
     (maximum, denominator, numerator carried from block to block and rescaled by exp (old max - new max))
     returns the plain average over the disjoint union of the two blocks. Every supremum is attained, hence
     real; the first block starts from (-inf, 0, 0), where exp (-inf - M0) = 0 removes the carried terms;
     for the second block exp (M0 - M) * exp (s - M0) = exp (s - M), so numerator and denominator become the
     sums over all keys of exp (s - M) * v and of exp (s - M); the denominator is positive, so dividing is
     multiplying by its real reciprocal.
  3. Score scaling: the single-precision words 0x3E000000 and 0x42800000 denote 1/8 and 64, and sqrt 64 = 8,
     so scaling each query entry by 1/8 before the dot product equals dividing the dot product by sqrt 64;
     the result is a real number.
-/
import proofs.«119473_j2525440770966_2_alg».proof.Proof.LibOnlineSoftmax

noncomputable section

namespace Cert.OnlineSoftmax

open Idealize.ShloMosaic

/-! ### The real embedding and finite sums -/

/-- The embedding of the reals commutes with a finite sum. -/
theorem coe_finsum {α : Type} (t : Finset α) (f : α → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The embedding of the reals commutes with the maximum of two reals. -/
theorem coe_max' (x y : ℝ) : ((max x y : ℝ) : EReal) = max (x : EReal) (y : EReal) :=
  EReal.coe_strictMono.monotone.map_max

/-! ### The two constants of the score scaling -/

/-- The single-precision word `0x3E000000` denotes 1/8. -/
theorem ofBits_eighth : Ideal.ofBits .f32 0x3E000000#32 = ((1 / 8 : ℝ) : EReal) := by
  simp [Ideal.ofBits, Ideal.ieee]
  rw [← EReal.coe_mul]
  congr 1
  norm_num

/-- The single-precision word `0x42800000` denotes 64. -/
theorem ofBits_sixtyfour : Ideal.ofBits .f32 0x42800000#32 = ((64 : ℝ) : EReal) := by
  simp [Ideal.ofBits, Ideal.ieee]
  rw [← EReal.coe_mul]
  congr 1
  norm_num

/-- The square root of 64 is 8. -/
theorem sqrt_sixtyfour : Ideal.sqrt ((64 : ℝ) : EReal) = ((8 : ℝ) : EReal) := by
  rw [Ideal.sqrt_coe, if_neg (by norm_num)]
  congr 1
  rw [show (64 : ℝ) = 8 ^ 2 by norm_num, Real.sqrt_sq (by norm_num)]

/-- Dividing by the square root of the word for 64 is multiplying by 1/8. -/
theorem div_sqrt_sixtyfour (x : EReal) :
    Ideal.div x (Ideal.sqrt (Ideal.ofBits .f32 0x42800000#32)) = x * ((1 / 8 : ℝ) : EReal) := by
  rw [ofBits_sixtyfour, sqrt_sixtyfour, Ideal.div_coe (by norm_num)]

/-- A dot product of embedded reals is the embedded real dot product. -/
theorem sum_coe_mul_coe {δ : Type} [Fintype δ] (q k : δ → ℝ) :
    (∑ d, (q d : EReal) * (k d : EReal)) = ((∑ d, q d * k d : ℝ) : EReal) := by
  rw [coe_finsum]
  exact Finset.sum_congr rfl (fun d _ => (EReal.coe_mul _ _).symm)

/-- Scaling every query entry by 1/8 before the dot product is dividing the dot product by sqrt 64:
    both sides are the real number (sum_d q d * k d) / 8. -/
theorem scaled_score {δ : Type} [Fintype δ] (q k : δ → ℝ) :
    (∑ d, ((q d : EReal) * Ideal.ofBits .f32 0x3E000000#32) * (k d : EReal)) =
      Ideal.div (∑ d, (q d : EReal) * (k d : EReal)) (Ideal.sqrt (Ideal.ofBits .f32 0x42800000#32)) := by
  rw [div_sqrt_sixtyfour, ofBits_eighth, sum_coe_mul_coe, ← EReal.coe_mul, Finset.sum_mul, coe_finsum]
  refine Finset.sum_congr rfl (fun d _ => ?_)
  rw [← EReal.coe_mul, ← EReal.coe_mul]
  congr 1
  ring

/-- The scaled score of real queries and keys is a real number. -/
theorem score_real {δ : Type} [Fintype δ] (q k : δ → ℝ) :
    ∃ r : ℝ, Ideal.div (∑ d, (q d : EReal) * (k d : EReal))
      (Ideal.sqrt (Ideal.ofBits .f32 0x42800000#32)) = (r : EReal) :=
  ⟨(∑ d, q d * k d) * (1 / 8), by rw [div_sqrt_sixtyfour, sum_coe_mul_coe, EReal.coe_mul]⟩

/-! ### Relabelling the keys -/

/-- The plain average does not depend on how the keys are labelled: the supremum and both sums are
    unchanged by a bijection of the index type. -/
theorem plain_equiv {ι κ : Type} [Fintype ι] [Fintype κ] (e : ι ≃ κ) (s v : κ → EReal) :
    plain (fun i => s (e i)) (fun i => v (e i)) = plain s v := by
  have hsup : (⨆ i, s (e i)) = ⨆ k, s k := Equiv.iSup_comp (g := s) e
  have hsum : (∑ i, Ideal.exp (s (e i) - ⨆ k, s k)) = ∑ k, Ideal.exp (s k - ⨆ k', s k') :=
    Equiv.sum_comp e (fun k => Ideal.exp (s k - ⨆ k', s k'))
  unfold plain
  rw [hsup, hsum]
  exact Equiv.sum_comp e
    (fun k => Ideal.div (Ideal.exp (s k - ⨆ k', s k')) (∑ k', Ideal.exp (s k' - ⨆ k'', s k'')) * v k)

/-! ### Suprema of finitely many reals -/

/-- The supremum of a nonempty finite family of embedded reals is attained, so it is an embedded real. -/
theorem exists_iSup_coe {ι : Type} [Fintype ι] [Nonempty ι] (f : ι → ℝ) :
    ∃ M : ℝ, (⨆ j, (f j : EReal)) = (M : EReal) := by
  obtain ⟨i, hi⟩ := exists_eq_ciSup_of_finite (f := fun j => (f j : EReal))
  exact ⟨f i, hi.symm⟩

/-- A pair of real families glued over the sum type, embedded entry by entry. -/
theorem elim_coe {ι κ : Type} (f : ι → ℝ) (g : κ → ℝ) :
    Sum.elim (fun j => (f j : EReal)) (fun j => (g j : EReal)) =
      fun x => ((Sum.elim f g x : ℝ) : EReal) := by
  funext x
  cases x <;> rfl

/-- The supremum over the sum type is the larger of the two blocks' suprema. -/
theorem iSup_elim_coe {ι κ : Type} (f : ι → ℝ) (g : κ → ℝ) {M0 M1 : ℝ}
    (h0 : (⨆ j, (f j : EReal)) = (M0 : EReal)) (h1 : (⨆ j, (g j : EReal)) = (M1 : EReal)) :
    (⨆ x, ((Sum.elim f g x : ℝ) : EReal)) = ((max M0 M1 : ℝ) : EReal) := by
  rw [iSup_sum]
  simp only [Sum.elim_inl, Sum.elim_inr]
  rw [h0, h1]
  exact (coe_max' M0 M1).symm

/-! ### One block of the running computation, on reals -/

section Blocks

variable {ι : Type} [Fintype ι]

/-- A block's sum of exponentials of real scores shifted by a real is an embedded real. -/
theorem sum_exp_coe (s : ι → ℝ) (N : ℝ) :
    (∑ j, Ideal.exp ((s j : EReal) - (N : EReal))) = ((∑ j, Real.exp (s j - N) : ℝ) : EReal) := by
  rw [coe_finsum]
  refine Finset.sum_congr rfl (fun j _ => ?_)
  rw [← EReal.coe_sub, Ideal.exp_coe]

/-- The same with each exponential weighted by a real value. -/
theorem sum_exp_mul_coe (s v : ι → ℝ) (N : ℝ) :
    (∑ j, Ideal.exp ((s j : EReal) - (N : EReal)) * (v j : EReal)) =
      ((∑ j, Real.exp (s j - N) * v j : ℝ) : EReal) := by
  rw [coe_finsum]
  refine Finset.sum_congr rfl (fun j _ => ?_)
  rw [← EReal.coe_sub, Ideal.exp_coe, ← EReal.coe_mul]

/-- From the running maximum -inf the new maximum is the block's supremum. -/
theorem stepM_bot (s : ι → EReal) : stepM ⊥ s = ⨆ j, s j := by
  unfold stepM
  exact max_eq_right bot_le

/-- From a real running maximum the new maximum is the real maximum with the block's supremum. -/
theorem stepM_coe (m : ℝ) (s : ι → ℝ) {M : ℝ} (hM : (⨆ j, (s j : EReal)) = (M : EReal)) :
    stepM (m : EReal) (fun j => (s j : EReal)) = ((max m M : ℝ) : EReal) := by
  unfold stepM
  rw [hM, coe_max']

/-- The first block's denominator: exp (-inf - M) = 0 kills the carried term. -/
theorem stepL_bot (s : ι → ℝ) {M : ℝ} (hM : (⨆ j, (s j : EReal)) = (M : EReal)) :
    stepL ⊥ 0 (fun j => (s j : EReal)) = ((∑ j, Real.exp (s j - M) : ℝ) : EReal) := by
  unfold stepL
  rw [stepM_bot, hM, EReal.bot_sub, Ideal.exp_bot, zero_mul, zero_add, sum_exp_coe]

/-- The first block's numerator. -/
theorem stepA_bot (s v : ι → ℝ) {M : ℝ} (hM : (⨆ j, (s j : EReal)) = (M : EReal)) :
    stepA ⊥ 0 (fun j => (s j : EReal)) (fun j => (v j : EReal)) =
      ((∑ j, Real.exp (s j - M) * v j : ℝ) : EReal) := by
  unfold stepA
  rw [stepM_bot, hM, EReal.bot_sub, Ideal.exp_bot, zero_mul, zero_add, sum_exp_mul_coe]

/-- A later block's denominator, from a real maximum and a real denominator. -/
theorem stepL_coe (m l : ℝ) (s : ι → ℝ) {M : ℝ} (hM : (⨆ j, (s j : EReal)) = (M : EReal)) :
    stepL (m : EReal) (l : EReal) (fun j => (s j : EReal)) =
      ((Real.exp (m - max m M) * l + ∑ j, Real.exp (s j - max m M) : ℝ) : EReal) := by
  unfold stepL
  rw [stepM_coe m s hM, ← EReal.coe_sub, Ideal.exp_coe, ← EReal.coe_mul, sum_exp_coe, ← EReal.coe_add]

/-- A later block's numerator, from a real maximum and a real numerator. -/
theorem stepA_coe (m a : ℝ) (s v : ι → ℝ) {M : ℝ} (hM : (⨆ j, (s j : EReal)) = (M : EReal)) :
    stepA (m : EReal) (a : EReal) (fun j => (s j : EReal)) (fun j => (v j : EReal)) =
      ((Real.exp (m - max m M) * a + ∑ j, Real.exp (s j - max m M) * v j : ℝ) : EReal) := by
  unfold stepA
  rw [stepM_coe m s hM, ← EReal.coe_sub, Ideal.exp_coe, ← EReal.coe_mul, sum_exp_mul_coe,
    ← EReal.coe_add]

end Blocks

/-! ### The two forms on real scores and values -/

/-- The plain average of real values under real scores is a quotient of two real sums. -/
theorem plain_coe {ι : Type} [Fintype ι] [Nonempty ι] (s v : ι → ℝ) {M : ℝ}
    (hM : (⨆ m, (s m : EReal)) = (M : EReal)) :
    plain (fun m => (s m : EReal)) (fun m => (v m : EReal)) =
      (((∑ m, Real.exp (s m - M) * v m) / (∑ m, Real.exp (s m - M)) : ℝ) : EReal) := by
  have hpos : 0 < ∑ m, Real.exp (s m - M) :=
    Finset.sum_pos (fun j _ => Real.exp_pos _) Finset.univ_nonempty
  unfold plain
  beta_reduce
  rw [hM, Finset.sum_div, coe_finsum, sum_exp_coe]
  refine Finset.sum_congr rfl (fun m _ => ?_)
  rw [← EReal.coe_sub, Ideal.exp_coe, Ideal.div_coe hpos.ne', ← EReal.coe_mul, ← EReal.coe_mul]
  congr 1
  ring

/-- The two-block running average of real values under real scores is a quotient of two reals. -/
theorem online_coe {ι κ : Type} [Fintype ι] [Fintype κ] [Nonempty κ]
    (s0 v0 : ι → ℝ) (s1 v1 : κ → ℝ) {M0 M1 : ℝ}
    (h0 : (⨆ j, (s0 j : EReal)) = (M0 : EReal)) (h1 : (⨆ j, (s1 j : EReal)) = (M1 : EReal)) :
    online (fun j => (s0 j : EReal)) (fun j => (v0 j : EReal))
        (fun j => (s1 j : EReal)) (fun j => (v1 j : EReal)) =
      (((Real.exp (M0 - max M0 M1) * (∑ j, Real.exp (s0 j - M0) * v0 j)
            + ∑ j, Real.exp (s1 j - max M0 M1) * v1 j) /
          (Real.exp (M0 - max M0 M1) * (∑ j, Real.exp (s0 j - M0))
            + ∑ j, Real.exp (s1 j - max M0 M1)) : ℝ) : EReal) := by
  have hpos : 0 < Real.exp (M0 - max M0 M1) * (∑ j, Real.exp (s0 j - M0))
      + ∑ j, Real.exp (s1 j - max M0 M1) :=
    add_pos_of_nonneg_of_pos
      (mul_nonneg (Real.exp_pos _).le (Finset.sum_nonneg (fun j _ => (Real.exp_pos _).le)))
      (Finset.sum_pos (fun j _ => Real.exp_pos _) Finset.univ_nonempty)
  unfold online
  rw [stepM_bot, h0, stepL_bot s0 h0, stepA_bot s0 v0 h0, stepL_coe _ _ s1 h1, stepA_coe _ _ s1 v1 h1,
    Ideal.div_coe hpos.ne', ← EReal.coe_mul, mul_one_div]

/-- The real identity behind the two-block law: rescaling the first block's sums by
    exp (M0 - M) turns exp (s - M0) into exp (s - M), and the sum over the glued index type
    splits into the two blocks. -/
theorem two_block_real {ι κ : Type} [Fintype ι] [Fintype κ]
    (s0 v0 : ι → ℝ) (s1 v1 : κ → ℝ) (M0 M : ℝ) :
    (Real.exp (M0 - M) * (∑ j, Real.exp (s0 j - M0) * v0 j) + ∑ j, Real.exp (s1 j - M) * v1 j) /
        (Real.exp (M0 - M) * (∑ j, Real.exp (s0 j - M0)) + ∑ j, Real.exp (s1 j - M)) =
      (∑ x, Real.exp (Sum.elim s0 s1 x - M) * Sum.elim v0 v1 x) /
        (∑ x, Real.exp (Sum.elim s0 s1 x - M)) := by
  have hE : ∀ j, Real.exp (M0 - M) * Real.exp (s0 j - M0) = Real.exp (s0 j - M) := fun j => by
    rw [← Real.exp_add]
    congr 1
    ring
  have hA : Real.exp (M0 - M) * (∑ j, Real.exp (s0 j - M0) * v0 j) =
      ∑ j, Real.exp (s0 j - M) * v0 j := by
    rw [Finset.mul_sum]
    exact Finset.sum_congr rfl (fun j _ => by rw [← mul_assoc, hE])
  have hL : Real.exp (M0 - M) * (∑ j, Real.exp (s0 j - M0)) = ∑ j, Real.exp (s0 j - M) := by
    rw [Finset.mul_sum]
    exact Finset.sum_congr rfl (fun j _ => hE j)
  rw [hA, hL, Fintype.sum_sum_type, Fintype.sum_sum_type]
  simp only [Sum.elim_inl, Sum.elim_inr]

/-- The two-block running average equals the plain average over all keys at once. -/
theorem online_eq_plain {ι κ : Type} [Fintype ι] [Fintype κ] [Nonempty ι] [Nonempty κ]
    (s0 v0 : ι → ℝ) (s1 v1 : κ → ℝ) :
    online (fun j => (s0 j : EReal)) (fun j => (v0 j : EReal))
        (fun j => (s1 j : EReal)) (fun j => (v1 j : EReal)) =
      plain (Sum.elim (fun j => (s0 j : EReal)) (fun j => (s1 j : EReal)))
        (Sum.elim (fun j => (v0 j : EReal)) (fun j => (v1 j : EReal))) := by
  obtain ⟨M0, h0⟩ := exists_iSup_coe s0
  obtain ⟨M1, h1⟩ := exists_iSup_coe s1
  rw [online_coe s0 v0 s1 v1 h0 h1, elim_coe, elim_coe,
    plain_coe (Sum.elim s0 s1) (Sum.elim v0 v1) (iSup_elim_coe s0 s1 h0 h1), two_block_real]

end Cert.OnlineSoftmax

end
-- ==== Proof.TwoBlocks.lean ====
/-
  One query row of attention over 2048 keys, taken in two blocks of 1024 keys.

  The keys 0 .. 2047 are the disjoint union of the first block (key j, j < 1024) and the second block
  (key 1024 + j, j < 1024).  On real queries, keys and values:
  * the score formed by scaling every query entry by 1/8 before the dot product is the score
    (dot product) / sqrt 64 of the specification, and it is a real number;
  * hence the two-block law applies: the running computation over the two blocks is the plain
    softmax-weighted average over the disjoint union of the blocks;
  * relabelling the disjoint union by the bijection with 0 .. 2047 gives the plain average over all
    2048 keys, which is attention at that batch, token, head and channel.
-/
import proofs.«119473_j2525440770966_2_alg».proof.Proof.Spec
import proofs.«119473_j2525440770966_2_alg».proof.Proof.LibOnlineSoftmaxLaw

noncomputable section

namespace Cert.TwoBlocks

open Idealize.ShloMosaic Idealize.ShloMosaic.ValueIdx Cert.Spec Cert.OnlineSoftmax

/-- Key j of the first block. -/
def lo (j : Fin 1024) : Fin 2048 := ⟨j.val, by have := j.isLt; omega⟩

/-- Key j of the second block. -/
def hi (j : Fin 1024) : Fin 2048 := ⟨1024 + j.val, by have := j.isLt; omega⟩

theorem lo_val (j : Fin 1024) : (lo j).val = j.val := rfl

theorem hi_val (j : Fin 1024) : (hi j).val = 1024 + j.val := rfl

/-- The block and position of a key. -/
def split (m : Fin 2048) : Fin 1024 ⊕ Fin 1024 :=
  if hm : m.val < 1024 then Sum.inl ⟨m.val, hm⟩
  else Sum.inr ⟨m.val - 1024, by have := m.isLt; omega⟩

theorem split_lo (j : Fin 1024) : split (lo j) = Sum.inl j := by
  have hj : (lo j).val < 1024 := j.isLt
  unfold split
  rw [dif_pos hj]
  rfl

theorem split_hi (j : Fin 1024) : split (hi j) = Sum.inr j := by
  have hj : ¬ (hi j).val < 1024 := by rw [hi_val]; omega
  unfold split
  rw [dif_neg hj]
  congr 1
  exact Fin.ext (by show (hi j).val - 1024 = j.val; rw [hi_val]; omega)

theorem glue_split (m : Fin 2048) : Sum.elim lo hi (split m) = m := by
  unfold split
  by_cases hm : m.val < 1024
  · rw [dif_pos hm, Sum.elim_inl]
    exact Fin.ext rfl
  · rw [dif_neg hm, Sum.elim_inr]
    exact Fin.ext (by rw [hi_val]; show 1024 + (m.val - 1024) = m.val; omega)

/-- The 2048 keys are the disjoint union of the two blocks. -/
def blocks : Fin 1024 ⊕ Fin 1024 ≃ Fin 2048 where
  toFun := Sum.elim lo hi
  invFun := split
  left_inv x := by
    cases x with
    | inl j => exact split_lo j
    | inr j => exact split_hi j
  right_inv := glue_split

theorem blocks_inl (j : Fin 1024) : blocks (Sum.inl j) = lo j := rfl

theorem blocks_inr (j : Fin 1024) : blocks (Sum.inr j) = hi j := rfl

/-- On real queries and keys, scaling every query entry by 1/8 before the dot product gives the
    score of the specification. -/
theorem kernel_score (qr kr : S3.Idx → ℝ) (b : Fin 4) (h : Fin 16) (n m : Fin 2048) :
    (∑ d' : Fin 64, ((qr (ix3 b n (chan h d')) : EReal) * Ideal.ofBits .f32 0x3E000000#32)
        * (kr (ix3 b m (chan h d')) : EReal)) =
      score (fun i => (qr i : EReal)) (fun i => (kr i : EReal)) b h n m := by
  unfold score
  exact scaled_score (fun d' : Fin 64 => qr (ix3 b n (chan h d'))) (fun d' : Fin 64 => kr (ix3 b m (chan h d')))

/-- On real queries and keys every score of the specification is a real number. -/
theorem score_is_real (qr kr : S3.Idx → ℝ) (b : Fin 4) (h : Fin 16) (n m : Fin 2048) :
    ∃ r : ℝ, score (fun i => (qr i : EReal)) (fun i => (kr i : EReal)) b h n m = (r : EReal) := by
  unfold score
  exact score_real (fun d' : Fin 64 => qr (ix3 b n (chan h d'))) (fun d' : Fin 64 => kr (ix3 b m (chan h d')))

/-- The plain average over the disjoint union of the two blocks is the plain average over all keys. -/
theorem plain_blocks (s w : Fin 2048 → EReal) :
    plain (Sum.elim (fun j : Fin 1024 => s (lo j)) (fun j : Fin 1024 => s (hi j)))
        (Sum.elim (fun j : Fin 1024 => w (lo j)) (fun j : Fin 1024 => w (hi j))) = plain s w := by
  rw [← plain_equiv blocks s w]
  congr 1
  · funext x
    cases x with
    | inl j => rfl
    | inr j => rfl
  · funext x
    cases x with
    | inl j => rfl
    | inr j => rfl

/-- The two-block running computation on real queries, keys and values is attention. -/
theorem attnAt_two_blocks_real (qr kr vr : S3.Idx → ℝ) (b : Fin 4) (n : Fin 2048) (h : Fin 16)
    (d : Fin 64) :
    online
        (fun j : Fin 1024 => ∑ d' : Fin 64,
          ((qr (ix3 b n (chan h d')) : EReal) * Ideal.ofBits .f32 0x3E000000#32)
            * (kr (ix3 b (lo j) (chan h d')) : EReal))
        (fun j : Fin 1024 => (vr (ix3 b (lo j) (chan h d)) : EReal))
        (fun j : Fin 1024 => ∑ d' : Fin 64,
          ((qr (ix3 b n (chan h d')) : EReal) * Ideal.ofBits .f32 0x3E000000#32)
            * (kr (ix3 b (hi j) (chan h d')) : EReal))
        (fun j : Fin 1024 => (vr (ix3 b (hi j) (chan h d)) : EReal)) =
      attnAt (fun i => (qr i : EReal)) (fun i => (kr i : EReal)) (fun i => (vr i : EReal)) b n h d := by
  haveI : Nonempty (Fin 1024) := ⟨⟨0, by omega⟩⟩
  choose sr hsr using fun m : Fin 2048 => score_is_real qr kr b h n m
  have hlo : (fun j : Fin 1024 => ∑ d' : Fin 64,
      ((qr (ix3 b n (chan h d')) : EReal) * Ideal.ofBits .f32 0x3E000000#32)
        * (kr (ix3 b (lo j) (chan h d')) : EReal)) = fun j : Fin 1024 => ((sr (lo j) : ℝ) : EReal) :=
    funext fun j => (kernel_score qr kr b h n (lo j)).trans (hsr (lo j))
  have hhi : (fun j : Fin 1024 => ∑ d' : Fin 64,
      ((qr (ix3 b n (chan h d')) : EReal) * Ideal.ofBits .f32 0x3E000000#32)
        * (kr (ix3 b (hi j) (chan h d')) : EReal)) = fun j : Fin 1024 => ((sr (hi j) : ℝ) : EReal) :=
    funext fun j => (kernel_score qr kr b h n (hi j)).trans (hsr (hi j))
  have hs : (fun m : Fin 2048 => score (fun i => (qr i : EReal)) (fun i => (kr i : EReal)) b h n m) =
      fun m : Fin 2048 => ((sr m : ℝ) : EReal) := funext hsr
  rw [hlo, hhi,
    online_eq_plain (fun j : Fin 1024 => sr (lo j)) (fun j : Fin 1024 => vr (ix3 b (lo j) (chan h d)))
      (fun j : Fin 1024 => sr (hi j)) (fun j : Fin 1024 => vr (ix3 b (hi j) (chan h d)))]
  unfold attnAt
  rw [hs]
  exact plain_blocks (fun m : Fin 2048 => ((sr m : ℝ) : EReal))
    (fun m : Fin 2048 => (vr (ix3 b m (chan h d)) : EReal))

/-- The two-block running computation, with every query entry scaled by 1/8 before the dot product,
    is attention at batch b, token n, head h, channel d, on arrays of real numbers. -/
theorem attnAt_two_blocks (q k v : S3.Idx → EReal)
    (hq : ∀ i, ∃ r : ℝ, q i = (r : EReal)) (hk : ∀ i, ∃ r : ℝ, k i = (r : EReal))
    (hv : ∀ i, ∃ r : ℝ, v i = (r : EReal)) (b : Fin 4) (n : Fin 2048) (h : Fin 16) (d : Fin 64) :
    online
        (fun j : Fin 1024 => ∑ d' : Fin 64,
          (q (ix3 b n (chan h d')) * Ideal.ofBits .f32 0x3E000000#32) * k (ix3 b (lo j) (chan h d')))
        (fun j : Fin 1024 => v (ix3 b (lo j) (chan h d)))
        (fun j : Fin 1024 => ∑ d' : Fin 64,
          (q (ix3 b n (chan h d')) * Ideal.ofBits .f32 0x3E000000#32) * k (ix3 b (hi j) (chan h d')))
        (fun j : Fin 1024 => v (ix3 b (hi j) (chan h d))) =
      attnAt q k v b n h d := by
  choose qr hqr using hq
  choose kr hkr using hk
  choose vr hvr using hv
  obtain rfl : q = fun i => (qr i : EReal) := funext hqr
  obtain rfl : k = fun i => (kr i : EReal) := funext hkr
  obtain rfl : v = fun i => (vr i : EReal) := funext hvr
  exact attnAt_two_blocks_real qr kr vr b n h d

end Cert.TwoBlocks

end
-- ==== Proof.BlockValue.lean ====
/-
  The output block of two consecutive grid points, read where it sits in the result array, is attention.

  Let the point with the first key block have query, key and value blocks x0a, x1a, x2a and the point with the last
  x0b, x1b, x2b, all of batch b, query block u and head pair p: the query blocks read q at rows u*1024 + r, the key
  and value blocks read k and v at rows j (first) and 1024 + j (last), all at lanes p*128 + l. Then entry (r, l) of the
  output block is attention at (b, u*1024 + r, p*128 + l): the two-block average of RowSteps is the two-block form of
  TwoBlocks, score by score and value by value, and for finite q, k, v that form is attention.
-/
import proofs.«119473_j2525440770966_2_alg».proof.Proof.Blocks
import proofs.«119473_j2525440770966_2_alg».proof.Proof.RowSteps
import proofs.«119473_j2525440770966_2_alg».proof.Proof.TwoBlocks

noncomputable section

open Idealize.ShloMosaic Idealize.ShloMosaic.ValueIdx

namespace Cert.KernelIdeal.BlockValue

open Cert.KernelIdeal Cert.KernelIdeal.Gen Cert.KernelIdeal.Blocks Cert.KernelIdeal.RowSteps Cert.OnlineSoftmax Cert.Spec
  Cert.TwoBlocks

/-- Two rank-3 indices with the same coordinates are the same index. -/
theorem ix3_ext {a b c : ℕ} {i i' : Fin a} {j j' : Fin b} {k k' : Fin c} (h0 : i.val = i'.val) (h1 : j.val = j'.val)
    (h2 : k.val = k'.val) : (ix3 i j k : (⟨3, ![a, b, c]⟩ : Shape).Idx) = ix3 i' j' k' := by
  obtain rfl := Fin.ext h0; obtain rfl := Fin.ext h1; obtain rfl := Fin.ext h2; rfl

/-- The head of a lane of head pair p: the first head of the pair on lanes 0..63, the second on lanes 64..127. -/
theorem lane_head0 (p : ℕ) (hp : p < 8) (d : Fin 64) :
    lane p hp (lane0 d) = chan ⟨2 * p, by omega⟩ d := Fin.ext (by show p * 128 + d.val = 2 * p * 64 + d.val; omega)
theorem lane_head1 (p : ℕ) (hp : p < 8) (d : Fin 64) :
    lane p hp (lane1 d) = chan ⟨2 * p + 1, by omega⟩ d :=
  Fin.ext (by show p * 128 + (64 + d.val) = (2 * p + 1) * 64 + d.val; omega)

/-- Every lane of the 128 is a lane of the first head or of the second. -/
theorem lane_cases (l : Fin 128) : (∃ d : Fin 64, l = lane0 d) ∨ (∃ d : Fin 64, l = lane1 d) := by
  by_cases h : l.val < 64
  · exact Or.inl ⟨⟨l.val, h⟩, Fin.ext rfl⟩
  · exact Or.inr ⟨⟨l.val - 64, by have := l.isLt; omega⟩, Fin.ext (by show l.val = 64 + (l.val - 64); omega)⟩

section

variable (q k v : S3.Idx → EReal)
variable (hq : ∀ i, ∃ r : ℝ, q i = (r : EReal)) (hk : ∀ i, ∃ r : ℝ, k i = (r : EReal))
  (hv : ∀ i, ∃ r : ℝ, v i = (r : EReal))
variable (x0a x1a x2a x0b x1b x2b : Vec Ideal S1x1024x128 .f32)
variable (b : Fin 4) (u : ℕ) (hu : u < 2) (p : ℕ) (hp : p < 8)
variable (hqa : ∀ (r : Fin 1024) (l : Fin 128), x0a (ix3 (0 : Fin 1) r l) = q (ix3 b (row u hu r) (lane p hp l)))
  (hqb : ∀ (r : Fin 1024) (l : Fin 128), x0b (ix3 (0 : Fin 1) r l) = q (ix3 b (row u hu r) (lane p hp l)))
  (hka : ∀ (j : Fin 1024) (l : Fin 128), x1a (ix3 (0 : Fin 1) j l) = k (ix3 b (lo j) (lane p hp l)))
  (hkb : ∀ (j : Fin 1024) (l : Fin 128), x1b (ix3 (0 : Fin 1) j l) = k (ix3 b (hi j) (lane p hp l)))
  (hva : ∀ (j : Fin 1024) (l : Fin 128), x2a (ix3 (0 : Fin 1) j l) = v (ix3 b (lo j) (lane p hp l)))
  (hvb : ∀ (j : Fin 1024) (l : Fin 128), x2b (ix3 (0 : Fin 1) j l) = v (ix3 b (hi j) (lane p hp l)))

include hq hk hv hqa hqb hka hkb hva hvb

theorem out_eq_attn (r : Fin 1024) (l : Fin 128) :
    k0_pay3
        (k0_pay23 (k0_pay15 x2b) (k0_pay19 x0b x1b (k0_pay24 (k0_pay18 x0a x1a (k0_pay4 (F := Ideal)))))
          (k0_pay20 x0b x1b (k0_pay24 (k0_pay18 x0a x1a (k0_pay4 (F := Ideal)))))
          (k0_pay23 (k0_pay15 x2a) (k0_pay19 x0a x1a (k0_pay4 (F := Ideal))) (k0_pay20 x0a x1a (k0_pay4 (F := Ideal))) (k0_pay6 (F := Ideal))))
        (k0_pay22 (k0_pay21 x0b x1b (k0_pay24 (k0_pay18 x0a x1a (k0_pay4 (F := Ideal)))) (k0_pay22 (k0_pay21 x0a x1a (k0_pay4 (F := Ideal)) (k0_pay5 (F := Ideal))))))
        (k0_pay1 (k0_pay16 x2b) (k0_pay27 (k0_pay13 x0b) (k0_pay14 x1b) (k0_pay2 (k0_pay26 (k0_pay13 x0a) (k0_pay14 x1a) (k0_pay7 (F := Ideal)))))
          (k0_pay30 (k0_pay13 x0b) (k0_pay14 x1b) (k0_pay2 (k0_pay26 (k0_pay13 x0a) (k0_pay14 x1a) (k0_pay7 (F := Ideal)))))
          (k0_pay1 (k0_pay16 x2a) (k0_pay27 (k0_pay13 x0a) (k0_pay14 x1a) (k0_pay7 (F := Ideal))) (k0_pay30 (k0_pay13 x0a) (k0_pay14 x1a) (k0_pay7 (F := Ideal))) (k0_pay9 (F := Ideal))))
        (k0_pay29 (k0_pay13 x0b) (k0_pay14 x1b) (k0_pay2 (k0_pay26 (k0_pay13 x0a) (k0_pay14 x1a) (k0_pay7 (F := Ideal))))
          (k0_pay29 (k0_pay13 x0a) (k0_pay14 x1a) (k0_pay7 (F := Ideal)) (k0_pay8 (F := Ideal)))) (ix3 (0 : Fin 1) r l)
      = attn q k v (ix3 b (row u hu r) (lane p hp l)) := by
  rcases lane_cases l with ⟨d, rfl⟩ | ⟨d, rfl⟩
  · rw [out_head0, lane_head0, attn_apply, ← attnAt_two_blocks q k v hq hk hv]
    congr 1 <;> funext j
    · unfold sc0; exact Finset.sum_congr rfl fun d' _ => by rw [hqa, hka, lane_head0]
    · rw [hva, lane_head0]
    · unfold sc0; exact Finset.sum_congr rfl fun d' _ => by rw [hqb, hkb, lane_head0]
    · rw [hvb, lane_head0]
  · rw [out_head1, lane_head1, attn_apply, ← attnAt_two_blocks q k v hq hk hv]
    congr 1 <;> funext j
    · unfold sc1; exact Finset.sum_congr rfl fun d' _ => by rw [hqa, hka, lane_head1]
    · rw [hva, lane_head1]
    · unfold sc1; exact Finset.sum_congr rfl fun d' _ => by rw [hqb, hkb, lane_head1]
    · rw [hvb, lane_head1]

end

end Cert.KernelIdeal.BlockValue

end
-- ==== Proof.AttnValue.lean ====
/-
  The kernel's result array is attention.

  A grid point with the last key block writes its output block back; the point before it has the first key block of
  the same batch, head pair and query block and leaves the running triples of both heads. So the block written back is
  the two-block output of BlockValue over the two points' blocks, which sit in the arrays where that lemma asks:
  the block is attention read through the block's rectangle. The 64 written blocks tile the [4, 2048, 1024] result.
-/
import proofs.«119473_j2525440770966_2_alg».proof.Proof.Pieces
import proofs.«119473_j2525440770966_2_alg».proof.Proof.BlockValue

noncomputable section

open Idealize.ShloMosaic Idealize.ShloMosaic.TcCoe Idealize.SL.Sem Idealize.ShloMosaic.ValueIdx
open Idealize.ShloMosaic.Pipeline (Dat)

namespace Cert.KernelIdeal.AttnValue

open Cert.KernelIdeal Cert.KernelIdeal.Gen Cert.KernelIdeal.Blocks Cert.KernelIdeal.BlockValue Cert.Spec Cert.TwoBlocks

variable (m : (ℓ : Loc nD τ sig) → Buf (Elt Ideal) ℓ) (ρ : Dev nD → PrngReg)

/-- The three argument arrays as core c holds them at launch. -/
abbrev argQ (c : Dev nD) : S3.Idx → EReal := m ((c : Thread nD τ).loc main_arg0)
abbrev argK (c : Dev nD) : S3.Idx → EReal := m ((c : Thread nD τ).loc main_arg1)
abbrev argV (c : Dev nD) : S3.Idx → EReal := m ((c : Thread nD τ).loc main_arg2)

/-- The point before a point with the last key block. -/
def prev (t : Fin cfg0.N) : Fin cfg0.N := ⟨t.val - 1, Nat.lt_of_le_of_lt (Nat.sub_le _ _) t.isLt⟩

section Point

variable (c : Dev nD) (t : Fin cfg0.N) (h1 : t.val % 2 = 1)

include h1 in
theorem prev_even : (prev t).val % 2 = 0 := by show (t.val - 1) % 2 = 0; omega
include h1 in
theorem prev_not_odd : ¬(prev t).val % 2 = 1 := by show ¬(t.val - 1) % 2 = 1; omega

/-! What the point before left in the six carried buffers. -/
include h1
theorem left0 : (outsAt0 m c (t.val - 1) (Nat.lt_of_le_of_lt (Nat.sub_le _ _) t.isLt)).2.1
    = k0_pay24 (k0_pay18 (iblk m c 0 (prev t)) (iblk m c 1 (prev t)) (k0_pay4 (F := Ideal))) :=
  (congrArg (fun p => p.2.1) (outsAt0_A m c (prev t) (prev_even t h1) (prev_not_odd t h1))).trans
    (Pieces.sA0 c (grid0.coords (prev t)) (ms0_0 (prev t)) (hs0_0 (prev t)) (ms0_1 (prev t)) (hs0_1 (prev t)) (ms0_2 (prev t)) (hs0_2 (prev t)) (ms0_3 (prev t)) (hs0_3 (prev t)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (prev t)).mpr (prev_even t h1))
      (fun h => prev_not_odd t h1 ((hcond0_1 (prev t)).mp h)) (iblk m c 0 (prev t)) (iblk m c 1 (prev t)) (iblk m c 2 (prev t)))

theorem left1 : (outsAt0 m c (t.val - 1) (Nat.lt_of_le_of_lt (Nat.sub_le _ _) t.isLt)).2.2.1
    = k0_pay22 (k0_pay21 (iblk m c 0 (prev t)) (iblk m c 1 (prev t)) (k0_pay4 (F := Ideal)) (k0_pay5 (F := Ideal))) :=
  (congrArg (fun p => p.2.2.1) (outsAt0_A m c (prev t) (prev_even t h1) (prev_not_odd t h1))).trans
    (Pieces.sA1 c (grid0.coords (prev t)) (ms0_0 (prev t)) (hs0_0 (prev t)) (ms0_1 (prev t)) (hs0_1 (prev t)) (ms0_2 (prev t)) (hs0_2 (prev t)) (ms0_3 (prev t)) (hs0_3 (prev t)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (prev t)).mpr (prev_even t h1))
      (fun h => prev_not_odd t h1 ((hcond0_1 (prev t)).mp h)) (iblk m c 0 (prev t)) (iblk m c 1 (prev t)) (iblk m c 2 (prev t)))

theorem left2 : (outsAt0 m c (t.val - 1) (Nat.lt_of_le_of_lt (Nat.sub_le _ _) t.isLt)).2.2.2.1
    = k0_pay23 (k0_pay15 (iblk m c 2 (prev t))) (k0_pay19 (iblk m c 0 (prev t)) (iblk m c 1 (prev t)) (k0_pay4 (F := Ideal)))
        (k0_pay20 (iblk m c 0 (prev t)) (iblk m c 1 (prev t)) (k0_pay4 (F := Ideal))) (k0_pay6 (F := Ideal)) :=
  (congrArg (fun p => p.2.2.2.1) (outsAt0_A m c (prev t) (prev_even t h1) (prev_not_odd t h1))).trans
    (Pieces.sA2 c (grid0.coords (prev t)) (ms0_0 (prev t)) (hs0_0 (prev t)) (ms0_1 (prev t)) (hs0_1 (prev t)) (ms0_2 (prev t)) (hs0_2 (prev t)) (ms0_3 (prev t)) (hs0_3 (prev t)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (prev t)).mpr (prev_even t h1))
      (fun h => prev_not_odd t h1 ((hcond0_1 (prev t)).mp h)) (iblk m c 0 (prev t)) (iblk m c 1 (prev t)) (iblk m c 2 (prev t)))

theorem left3 : (outsAt0 m c (t.val - 1) (Nat.lt_of_le_of_lt (Nat.sub_le _ _) t.isLt)).2.2.2.2.1
    = k0_pay2 (k0_pay26 (k0_pay13 (iblk m c 0 (prev t))) (k0_pay14 (iblk m c 1 (prev t))) (k0_pay7 (F := Ideal))) :=
  (congrArg (fun p => p.2.2.2.2.1) (outsAt0_A m c (prev t) (prev_even t h1) (prev_not_odd t h1))).trans
    (Pieces.sA3 c (grid0.coords (prev t)) (ms0_0 (prev t)) (hs0_0 (prev t)) (ms0_1 (prev t)) (hs0_1 (prev t)) (ms0_2 (prev t)) (hs0_2 (prev t)) (ms0_3 (prev t)) (hs0_3 (prev t)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (prev t)).mpr (prev_even t h1))
      (fun h => prev_not_odd t h1 ((hcond0_1 (prev t)).mp h)) (iblk m c 0 (prev t)) (iblk m c 1 (prev t)) (iblk m c 2 (prev t)))

theorem left4 : (outsAt0 m c (t.val - 1) (Nat.lt_of_le_of_lt (Nat.sub_le _ _) t.isLt)).2.2.2.2.2.1
    = k0_pay29 (k0_pay13 (iblk m c 0 (prev t))) (k0_pay14 (iblk m c 1 (prev t))) (k0_pay7 (F := Ideal)) (k0_pay8 (F := Ideal)) :=
  (congrArg (fun p => p.2.2.2.2.2.1) (outsAt0_A m c (prev t) (prev_even t h1) (prev_not_odd t h1))).trans
    (Pieces.sA4 c (grid0.coords (prev t)) (ms0_0 (prev t)) (hs0_0 (prev t)) (ms0_1 (prev t)) (hs0_1 (prev t)) (ms0_2 (prev t)) (hs0_2 (prev t)) (ms0_3 (prev t)) (hs0_3 (prev t)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (prev t)).mpr (prev_even t h1))
      (fun h => prev_not_odd t h1 ((hcond0_1 (prev t)).mp h)) (iblk m c 0 (prev t)) (iblk m c 1 (prev t)) (iblk m c 2 (prev t)))

theorem left5 : (outsAt0 m c (t.val - 1) (Nat.lt_of_le_of_lt (Nat.sub_le _ _) t.isLt)).2.2.2.2.2.2
    = k0_pay1 (k0_pay16 (iblk m c 2 (prev t))) (k0_pay27 (k0_pay13 (iblk m c 0 (prev t))) (k0_pay14 (iblk m c 1 (prev t))) (k0_pay7 (F := Ideal)))
        (k0_pay30 (k0_pay13 (iblk m c 0 (prev t))) (k0_pay14 (iblk m c 1 (prev t))) (k0_pay7 (F := Ideal))) (k0_pay9 (F := Ideal)) :=
  (congrArg (fun p => p.2.2.2.2.2.2) (outsAt0_A m c (prev t) (prev_even t h1) (prev_not_odd t h1))).trans
    (Pieces.sA5 c (grid0.coords (prev t)) (ms0_0 (prev t)) (hs0_0 (prev t)) (ms0_1 (prev t)) (hs0_1 (prev t)) (ms0_2 (prev t)) (hs0_2 (prev t)) (ms0_3 (prev t)) (hs0_3 (prev t)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (prev t)).mpr (prev_even t h1))
      (fun h => prev_not_odd t h1 ((hcond0_1 (prev t)).mp h)) (iblk m c 0 (prev t)) (iblk m c 1 (prev t)) (iblk m c 2 (prev t)))

omit h1

/-- WHAT A POINT WITH THE LAST KEY BLOCK WRITES BACK is its block of attention. -/
theorem flushed_eq (hq : ∀ i, ∃ r : ℝ, argQ m c i = (r : EReal)) (hk : ∀ i, ∃ r : ℝ, argK m c i = (r : EReal))
    (hv : ∀ i, ∃ r : ℝ, argV m c i = (r : EReal)) (hf : (cfg0.win 3).flush t = true) :
    (dats m 0 c).flushed 3 t
      = ((cfg0.win 3).blk t).view.read (Elt Ideal) (attn (argQ m c) (argK m c) (argV m c)) := by
  have h1 : t.val % 2 = 1 := (flush0_3 t).mp hf
  have h0 : ¬t.val % 2 = 0 := by omega
  have hN := lt128 t
  rw [Value.flushed3_B m c t h0 h1, Pieces.oB, left0 m c t h1, left1 m c t h1, left2 m c t h1, left3 m c t h1,
    left4 m c t h1, left5 m c t h1]
  have key : ∀ y : S1x1024x128.Idx,
      (k0_pay3
        (k0_pay23 (k0_pay15 (iblk m c 2 t)) (k0_pay19 (iblk m c 0 t) (iblk m c 1 t) (k0_pay24 (k0_pay18 (iblk m c 0 (prev t)) (iblk m c 1 (prev t)) (k0_pay4 (F := Ideal)))))
          (k0_pay20 (iblk m c 0 t) (iblk m c 1 t) (k0_pay24 (k0_pay18 (iblk m c 0 (prev t)) (iblk m c 1 (prev t)) (k0_pay4 (F := Ideal)))))
          (k0_pay23 (k0_pay15 (iblk m c 2 (prev t))) (k0_pay19 (iblk m c 0 (prev t)) (iblk m c 1 (prev t)) (k0_pay4 (F := Ideal))) (k0_pay20 (iblk m c 0 (prev t)) (iblk m c 1 (prev t)) (k0_pay4 (F := Ideal))) (k0_pay6 (F := Ideal))))
        (k0_pay22 (k0_pay21 (iblk m c 0 t) (iblk m c 1 t) (k0_pay24 (k0_pay18 (iblk m c 0 (prev t)) (iblk m c 1 (prev t)) (k0_pay4 (F := Ideal)))) (k0_pay22 (k0_pay21 (iblk m c 0 (prev t)) (iblk m c 1 (prev t)) (k0_pay4 (F := Ideal)) (k0_pay5 (F := Ideal))))))
        (k0_pay1 (k0_pay16 (iblk m c 2 t)) (k0_pay27 (k0_pay13 (iblk m c 0 t)) (k0_pay14 (iblk m c 1 t)) (k0_pay2 (k0_pay26 (k0_pay13 (iblk m c 0 (prev t))) (k0_pay14 (iblk m c 1 (prev t))) (k0_pay7 (F := Ideal)))))
          (k0_pay30 (k0_pay13 (iblk m c 0 t)) (k0_pay14 (iblk m c 1 t)) (k0_pay2 (k0_pay26 (k0_pay13 (iblk m c 0 (prev t))) (k0_pay14 (iblk m c 1 (prev t))) (k0_pay7 (F := Ideal)))))
          (k0_pay1 (k0_pay16 (iblk m c 2 (prev t))) (k0_pay27 (k0_pay13 (iblk m c 0 (prev t))) (k0_pay14 (iblk m c 1 (prev t))) (k0_pay7 (F := Ideal))) (k0_pay30 (k0_pay13 (iblk m c 0 (prev t))) (k0_pay14 (iblk m c 1 (prev t))) (k0_pay7 (F := Ideal))) (k0_pay9 (F := Ideal))))
        (k0_pay29 (k0_pay13 (iblk m c 0 t)) (k0_pay14 (iblk m c 1 t)) (k0_pay2 (k0_pay26 (k0_pay13 (iblk m c 0 (prev t))) (k0_pay14 (iblk m c 1 (prev t))) (k0_pay7 (F := Ideal))))
          (k0_pay29 (k0_pay13 (iblk m c 0 (prev t))) (k0_pay14 (iblk m c 1 (prev t))) (k0_pay7 (F := Ideal)) (k0_pay8 (F := Ideal))))) y
        = attn (argQ m c) (argK m c) (argV m c) (((cfg0.win 3).blk t).view.emb y) := by
    intro y
    obtain ⟨u0, r, l, rfl⟩ : ∃ (u0 : Fin 1) (r : Fin 1024) (l : Fin 128), y = ix3 u0 r l := ⟨y 0, y 1, y 2, eq_ix3 y⟩
    obtain rfl : u0 = 0 := Subsingleton.elim _ _
    rw [oblk_emb]
    refine out_eq_attn (argQ m c) (argK m c) (argV m c) hq hk hv _ _ _ _ _ _ (batch t) (t.val / 2 % 2)
      (Nat.mod_lt _ (by norm_num)) (t.val / 4 % 8) (Nat.mod_lt _ (by norm_num)) ?_ ?_ ?_ ?_ ?_ ?_ r l
    · intro r l
      exact (qblk_apply m c (prev t) r l).trans (congrArg _ (ix3_ext (by show (t.val - 1) / 32 = t.val / 32; omega)
        (by show (t.val - 1) / 2 % 2 * 1024 + r.val = t.val / 2 % 2 * 1024 + r.val; omega)
        (by show (t.val - 1) / 4 % 8 * 128 + l.val = t.val / 4 % 8 * 128 + l.val; omega)))
    · intro r l
      exact qblk_apply m c t r l
    · intro j l
      exact (kblk_apply m c (prev t) j l).trans (congrArg _ (ix3_ext (by show (t.val - 1) / 32 = t.val / 32; omega)
        (by show (t.val - 1) % 2 * 1024 + j.val = j.val; omega)
        (by show (t.val - 1) / 4 % 8 * 128 + l.val = t.val / 4 % 8 * 128 + l.val; omega)))
    · intro j l
      exact (kblk_apply m c t j l).trans (congrArg _ (ix3_ext rfl
        (by show t.val % 2 * 1024 + j.val = 1024 + j.val; omega) rfl))
    · intro j l
      exact (vblk_apply m c (prev t) j l).trans (congrArg _ (ix3_ext (by show (t.val - 1) / 32 = t.val / 32; omega)
        (by show (t.val - 1) % 2 * 1024 + j.val = j.val; omega)
        (by show (t.val - 1) / 4 % 8 * 128 + l.val = t.val / 4 % 8 * 128 + l.val; omega)))
    · intro j l
      exact (vblk_apply m c t j l).trans (congrArg _ (ix3_ext rfl
        (by show t.val % 2 * 1024 + j.val = 1024 + j.val; omega) rfl))
  exact funext key

end Point

/-- An index of the result is in point t's block iff each coordinate is in the block's range on its axis. -/
theorem mem_blk (t : Fin cfg0.N) (i : S4x2048x1024.Idx) :
    i ∈ ((cfg0.win 3).blk t).view.set ↔ ∀ a : Fin 3, win0_3.index t a * S1x1024x128.size a ≤ (i a).val
      ∧ (i a).val < win0_3.index t a * S1x1024x128.size a + S1x1024x128.size a := by
  show i ∈ ((View.whole main_v0).slice (win0_3.rect t)).set ↔ _
  rw [View.set_slice_whole, Rect.mem_set_unit]
  exact Iff.rfl

/-- The written blocks cover the result: (b, n, ch) lies in the block of batch b, head pair ch / 128, query block
    n / 1024, written at the point with the last key block. -/
theorem cover (i : S4x2048x1024.Idx) :
    ∃ t : Fin cfg0.N, (cfg0.win 3).flush t = true ∧ i ∈ ((cfg0.win 3).blk t).view.set := by
  have hN : cfg0.N = 128 := N_0
  have i0 : (i 0).val < 4 := (i 0).isLt
  have i1 : (i 1).val < 2048 := (i 1).isLt
  have i2 : (i 2).val < 1024 := (i 2).isLt
  refine ⟨⟨(i 0).val * 32 + (i 2).val / 128 * 4 + (i 1).val / 1024 * 2 + 1, by omega⟩, ?_, ?_⟩
  · exact (flush0_3 _).mpr (by show ((i 0).val * 32 + (i 2).val / 128 * 4 + (i 1).val / 1024 * 2 + 1) % 2 = 1; omega)
  · rw [mem_blk]
    obtain ⟨-, -, -, -, -, -, -, -, -, e0, e1, e2⟩ :=
      idx_facts ⟨(i 0).val * 32 + (i 2).val / 128 * 4 + (i 1).val / 1024 * 2 + 1, by omega⟩
    intro a
    match a with
    | ⟨0, _⟩ =>
      show win0_3.index _ (0 : Fin 3) * 1 ≤ (i 0).val ∧ (i 0).val < win0_3.index _ (0 : Fin 3) * 1 + 1
      rw [e0]; dsimp only; omega
    | ⟨1, _⟩ =>
      show win0_3.index _ (1 : Fin 3) * 1024 ≤ (i 1).val ∧ (i 1).val < win0_3.index _ (1 : Fin 3) * 1024 + 1024
      rw [e1]; dsimp only; omega
    | ⟨2, _⟩ =>
      show win0_3.index _ (2 : Fin 3) * 128 ≤ (i 2).val ∧ (i 2).val < win0_3.index _ (2 : Fin 3) * 128 + 128
      rw [e2]; dsimp only; omega

/-- THE RESULT ARRAY after the run is attention of the three argument arrays, when these are finite. -/
theorem final (c : Dev nD) (hq : ∀ i, ∃ r : ℝ, argQ m c i = (r : EReal)) (hk : ∀ i, ∃ r : ℝ, argK m c i = (r : EReal))
    (hv : ∀ i, ∃ r : ℝ, argV m c i = (r : EReal)) :
    (dats m 0 c).arrAt 3 cfg0.N = attn (argQ m c) (argK m c) (argV m c) :=
  (dats m 0 c).arrAt_eq_of_cover 3 (attn (argQ m c) (argK m c) (argV m c))
    (fun t hf => flushed_eq m c t hq hk hv hf) cover

/-- The kernel's run, read: the result array at attention, the arguments unchanged. -/
theorem run (hfin : ∀ c : Dev nD, (∀ i, ∃ r : ℝ, argQ m c i = (r : EReal)) ∧ (∀ i, ∃ r : ℝ, argK m c i = (r : EReal))
      ∧ (∀ i, ∃ r : ℝ, argV m c i = (r : EReal))) :
    θ_run defs (onTc (τ := τ) (main (F := Ideal))) ⟨m, fun _ => 0, ρ⟩ fun r => ∀ c : Dev nD,
      r.2.mem ((c : Thread nD τ).loc main_v0) = attn (argQ m c) (argK m c) (argV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hfin c).1 (hfin c).2.1 (hfin c).2.2), (h c).2⟩)
    (Value.run_blocks m ρ)

end Cert.KernelIdeal.AttnValue

end
-- ==== Proof.RefAttn.lean ====
/-
  The reference program computes multi-head attention.

  The reference splits each [4, 2048, 1024] argument into 16 heads of width 64 (a reshape to [4, 2048, 16, 64] and a
  transpose to [4, 16, 2048, 64]), takes the scores q·k / sqrt 64 over the head's 64 channels, normalises each row of
  2048 scores by a softmax (row maximum, exponentials of the differences, their sum, the quotients), contracts the
  weights with v over the 2048 keys, and undoes the transpose and the reshape. Read at an index (b, n, h*64 + d) of the
  result, stage by stage from the last one inward, this is the softmax-weighted average that Spec.attnAt names.

  Two small absorptions: the reference takes max (-inf, row maximum), which is the row maximum because -inf is the
  bottom element; and its sum of exponentials starts from the word of 0, which is the zero of the extended reals.
-/
import proofs.«119473_j2525440770966_2_alg».proof.Proof.Gen.ReferenceIdeal.Read
import proofs.«119473_j2525440770966_2_alg».proof.Proof.Spec
import proofs.«119473_j2525440770966_2_alg».proof.Proof.LibExtremeReduce
import Idealize.ShloMosaic.Lib.ValueIdx
import Idealize.ShloMosaic.Lib.Pipeline.Value
import Idealize.ShloMosaic.Lib.ValueLayout
import Idealize.ShloMosaic.PureOps.Ideal.Laws

noncomputable section

namespace Cert.RefAttn

open Cert.ReferenceIdeal Cert.ReferenceIdeal.Gen Cert.ReferenceIdeal.Read Idealize.ShloMosaic
  Idealize.ShloMosaic.ValueIdx Cert.Spec

/-- An argument array, or the result: batch, token, channel. -/
abbrev Arr : Type := (⟨S4x2048x1024, .f32⟩ : BufTy).Contents (Elt Ideal)

/-! ## The index maps at explicit coordinates -/

/-- Splitting the channel axis into heads and moving the head axis forward: position (b, h, n, d) of the
    [4, 16, 2048, 64] view is channel h*64 + d of token n in batch b. -/
theorem idx_split (b : Fin 4) (h : Fin 16) (n : Fin 2048) (d : Fin 64) :
    idx_main_v0 (idx_main_v1 (ix4 b h n d)) = ix3 b n (chan h d) := by
  have hb := b.isLt; have hh := h.isLt; have hn := n.isLt; have hd := d.isLt
  funext a
  match a with
  | ⟨0, _⟩ =>
    exact Fin.ext (by
      show (((b.val * 2048 + n.val) * 16 + h.val) * 64 + d.val) / 2097152 = b.val
      omega)
  | ⟨1, _⟩ =>
    exact Fin.ext (by
      show (((b.val * 2048 + n.val) * 16 + h.val) * 64 + d.val) / 1024 % 2048 = n.val
      omega)
  | ⟨2, _⟩ =>
    exact Fin.ext (by
      show (((b.val * 2048 + n.val) * 16 + h.val) * 64 + d.val) % 1024 = h.val * 64 + d.val
      omega)

/-- The inverse on the result side: channel h*64 + d of token n in batch b comes from position (b, h, n, d). -/
theorem idx_merge (b : Fin 4) (n : Fin 2048) (h : Fin 16) (d : Fin 64) :
    idx_main_v22 (idx_main_v23 (ix3 b n (chan h d))) = ix4 b h n d := by
  have hb := b.isLt; have hh := h.isLt; have hn := n.isLt; have hd := d.isLt
  funext a
  match a with
  | ⟨0, _⟩ =>
    exact Fin.ext (by
      show ((b.val * 2048 + n.val) * 1024 + (h.val * 64 + d.val)) / 2097152 = b.val
      omega)
  | ⟨1, _⟩ =>
    exact Fin.ext (by
      show ((b.val * 2048 + n.val) * 1024 + (h.val * 64 + d.val)) / 64 % 16 = h.val
      omega)
  | ⟨2, _⟩ =>
    exact Fin.ext (by
      show ((b.val * 2048 + n.val) * 1024 + (h.val * 64 + d.val)) / 1024 % 2048 = n.val
      omega)
  | ⟨3, _⟩ =>
    exact Fin.ext (by
      show ((b.val * 2048 + n.val) * 1024 + (h.val * 64 + d.val)) % 64 = d.val
      omega)

/-- The score contraction reads its left operand at (b, h, n, d') … -/
theorem lidx_score (b : Fin 4) (h : Fin 16) (n m : Fin 2048) (d : Fin 64) :
    lidx_main_v6 (ix4 b h n m) d = ix4 b h n d := by
  funext a
  match a with
  | ⟨0, _⟩ => rfl
  | ⟨1, _⟩ => rfl
  | ⟨2, _⟩ => rfl
  | ⟨3, _⟩ => rfl

/-- … and its right operand at (b, h, m, d'). -/
theorem ridx_score (b : Fin 4) (h : Fin 16) (n m : Fin 2048) (d : Fin 64) :
    ridx_main_v6 (ix4 b h n m) d = ix4 b h m d := by
  funext a
  match a with
  | ⟨0, _⟩ => rfl
  | ⟨1, _⟩ => rfl
  | ⟨2, _⟩ => rfl
  | ⟨3, _⟩ => rfl

/-- A per-row quantity broadcast along the key axis is read at (b, h, n), whatever the key. -/
theorem idx_row (b : Fin 4) (h : Fin 16) (n m : Fin 2048) :
    idx_main_v13 (idx_main_v14 (ix4 b h n m)) = ix3 b h n := by
  funext a
  match a with
  | ⟨0, _⟩ => rfl
  | ⟨1, _⟩ => rfl
  | ⟨2, _⟩ => rfl

/-- The same for the second broadcast pair (the denominators). -/
theorem idx_row' (b : Fin 4) (h : Fin 16) (n m : Fin 2048) :
    idx_main_v18 (idx_main_v19 (ix4 b h n m)) = ix3 b h n := by
  funext a
  match a with
  | ⟨0, _⟩ => rfl
  | ⟨1, _⟩ => rfl
  | ⟨2, _⟩ => rfl

/-- The sum over the key axis at row (b, h, n) reads key m at (b, h, n, m). -/
theorem idx_key (b : Fin 4) (h : Fin 16) (n m : Fin 2048) :
    idx_main_v17 (ix3 b h n) m = ix4 b h n m := by
  funext a
  match a with
  | ⟨0, _⟩ => rfl
  | ⟨1, _⟩ => rfl
  | ⟨2, _⟩ => rfl
  | ⟨3, _⟩ => rfl

/-- The value contraction reads the weights at (b, h, n, m) … -/
theorem lidx_out (b : Fin 4) (h : Fin 16) (n : Fin 2048) (d : Fin 64) (m : Fin 2048) :
    lidx_main_v21 (ix4 b h n d) m = ix4 b h n m := by
  funext a
  match a with
  | ⟨0, _⟩ => rfl
  | ⟨1, _⟩ => rfl
  | ⟨2, _⟩ => rfl
  | ⟨3, _⟩ => rfl

/-- … and the values at (b, h, m, d). -/
theorem ridx_out (b : Fin 4) (h : Fin 16) (n : Fin 2048) (d : Fin 64) (m : Fin 2048) :
    ridx_main_v21 (ix4 b h n d) m = ix4 b h m d := by
  funext a
  match a with
  | ⟨0, _⟩ => rfl
  | ⟨1, _⟩ => rfl
  | ⟨2, _⟩ => rfl
  | ⟨3, _⟩ => rfl

/-! ## The stages at explicit coordinates -/

/-- The head view of an argument at (b, h, n, d) is the argument at (b, n, h*64 + d). -/
theorem read_heads (x : Arr) (b : Fin 4) (h : Fin 16) (n : Fin 2048) (d : Fin 64) :
    val_main_v1 (F := Ideal) x (ix4 b h n d) = x (ix3 b n (chan h d)) := by
  rw [val_main_v1_apply, val_main_v0_apply, idx_split]

/-- The three arguments are split into heads by the same two operations. -/
theorem heads_k (x : Arr) : val_main_v3 (F := Ideal) x = val_main_v1 (F := Ideal) x := rfl
theorem heads_v (x : Arr) : val_main_v5 (F := Ideal) x = val_main_v1 (F := Ideal) x := rfl

/-- The scaled scores. -/
theorem read_score (q k : Arr) (b : Fin 4) (h : Fin 16) (n m : Fin 2048) :
    val_main_v9 (F := Ideal) q k (ix4 b h n m) = score q k b h n m := by
  rw [val_main_v9_apply, val_main_v6_apply, val_main_v8_apply]
  unfold score
  show Ideal.div _ (Ideal.sqrt (Ideal.ofBits .f32 0x42800000#32)) = _
  refine congrArg (Ideal.div · _) (Finset.sum_congr rfl fun d _ => ?_)
  rw [lidx_score, ridx_score, heads_k, read_heads, read_heads]

/-- The row maximum of the scores: a maximum folded from -inf over the keys is their supremum. -/
theorem read_rowmax (q k : Arr) (b : Fin 4) (h : Fin 16) (n : Fin 2048) :
    val_main_v10 (F := Ideal) q k (ix3 b h n) = ⨆ m : Fin 2048, score q k b h n m := by
  refine (ExtremeReduce.hostReduce_max_single (u := S_) (val_main_v9 (F := Ideal) q k)
    reducesTo_S4x16x2048x2048_S4x16x2048_d3 (by decide) h_S_ (ix3 b h n)).trans ?_
  refine iSup_congr fun m => ?_
  refine Eq.trans ?_ (read_score q k b h n m)
  exact congrArg (val_main_v9 (F := Ideal) q k) (funext fun a => Fin.ext (by
    match a with
    | ⟨0, _⟩ => rfl
    | ⟨1, _⟩ => rfl
    | ⟨2, _⟩ => rfl
    | ⟨3, _⟩ => rfl))

/-- The maximum with -inf changes nothing: -inf is the bottom element. -/
theorem read_rowmax' (q k : Arr) (b : Fin 4) (h : Fin 16) (n : Fin 2048) :
    val_main_v12 (F := Ideal) q k (ix3 b h n) = ⨆ m : Fin 2048, score q k b h n m := by
  rw [val_main_v12_apply, val_main_v11_apply, val_main_cst_1_apply, read_rowmax]
  show max (Ideal.ofBits .f32 0xFF800000#32) _ = _
  rw [ExtremeReduce.ofBits_negInf]
  exact max_bot_left _

/-- The row maximum, broadcast back along the keys. -/
theorem read_rowmax_bc (q k : Arr) (b : Fin 4) (h : Fin 16) (n m : Fin 2048) :
    val_main_v14 (F := Ideal) q k (ix4 b h n m) = ⨆ m' : Fin 2048, score q k b h n m' := by
  rw [val_main_v14_apply, val_main_v13_apply, idx_row, read_rowmax']

/-- The exponential of a score's distance below the row maximum. -/
theorem read_exp (q k : Arr) (b : Fin 4) (h : Fin 16) (n m : Fin 2048) :
    val_main_v16 (F := Ideal) q k (ix4 b h n m)
      = Ideal.exp (score q k b h n m - ⨆ m' : Fin 2048, score q k b h n m') := by
  rw [val_main_v16_apply, val_main_v15_apply, read_score, read_rowmax_bc]
  rfl

/-- The row's sum of exponentials; the initial value is the zero of the extended reals. -/
theorem read_denom (q k : Arr) (b : Fin 4) (h : Fin 16) (n : Fin 2048) :
    val_main_v17 (F := Ideal) q k (ix3 b h n)
      = ∑ m : Fin 2048, Ideal.exp (score q k b h n m - ⨆ m' : Fin 2048, score q k b h n m') := by
  rw [val_main_v17_apply, val_main_cst_2_apply]
  show Ideal.ofBits .f32 0x00000000#32 + _ = _
  rw [Ideal.ofBits_zero_f32, zero_add]
  refine Finset.sum_congr rfl fun m _ => ?_
  rw [idx_key, read_exp]

/-- The sum, broadcast back along the keys. -/
theorem read_denom_bc (q k : Arr) (b : Fin 4) (h : Fin 16) (n m : Fin 2048) :
    val_main_v19 (F := Ideal) q k (ix4 b h n m)
      = ∑ m' : Fin 2048, Ideal.exp (score q k b h n m' - ⨆ m'' : Fin 2048, score q k b h n m'') := by
  rw [val_main_v19_apply, val_main_v18_apply, idx_row', read_denom]

/-- The softmax weight of key m for query n. -/
theorem read_weight (q k : Arr) (b : Fin 4) (h : Fin 16) (n m : Fin 2048) :
    val_main_v20 (F := Ideal) q k (ix4 b h n m)
      = Ideal.div (Ideal.exp (score q k b h n m - ⨆ m' : Fin 2048, score q k b h n m'))
          (∑ m' : Fin 2048, Ideal.exp (score q k b h n m' - ⨆ m'' : Fin 2048, score q k b h n m'')) := by
  rw [val_main_v20_apply, read_exp, read_denom_bc]
  rfl

/-- The weighted average of the values, in the head view. -/
theorem read_avg (q k v : Arr) (b : Fin 4) (h : Fin 16) (n : Fin 2048) (d : Fin 64) :
    val_main_v21 (F := Ideal) q k v (ix4 b h n d) = attnAt q k v b n h d := by
  rw [val_main_v21_apply]
  unfold attnAt OnlineSoftmax.plain
  refine Finset.sum_congr rfl fun m _ => ?_
  rw [lidx_out, ridx_out, read_weight, heads_v, read_heads]

/-! ## The whole array -/

/-- The reference program's result, as a function of its three arguments, is attention. -/
theorem ref_eq (q k v : Arr) : val_main_v23 (F := Ideal) q k v = attn q k v := by
  funext i
  obtain ⟨b, n, h, d, rfl⟩ := idx_cases i
  rw [attn_apply, val_main_v23_apply, val_main_v22_apply, idx_merge, read_avg]

end Cert.RefAttn

end
-- ==== Proof.FiniteInputs.lean ====
/-
  FINITENESS READ OUT OF THE PRECONDITION. The precondition's function takes three f32 arrays of shape [4, 2048, 1024]
  and answers one bit: the conjunction, over the three arrays, of "every entry x has |x| < +∞". In the extended reals an
  entry is ⊥, a real number, or ⊤; its absolute value is max x (-x), which is ⊤ at both ⊥ and ⊤ and the real |r| at a
  real r. So the bit being 1 says exactly that every entry of every array is a real number. The conjunction of all entries
  is a reduction by "and" over all three axes into a single bit; a reduction by "and" that comes out 1 met a 1 at every
  index, which is the only fact about the reduction that is used — no entry is ever enumerated.
-/
import proofs.«119473_j2525440770966_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.FiniteInputs

open Idealize.ShloMosaic Cert.Pre_finite_inputs

/-- The shape with no axes has exactly one index. -/
instance subsingleton_scalar_idx : Subsingleton S_.Idx := ⟨fun a b => funext fun d => d.elim0⟩

/-- An extended real whose absolute value max x (-x) lies strictly below +∞ is a real number:
    at ⊥ the maximum is -⊥ = ⊤, at ⊤ it is ⊤ itself, and neither is below ⊤. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The f32 word with all exponent bits set and no fraction bit denotes +∞. -/
theorem inf_word : Ideal.ofBits .f32 0x7F800000#32 = (⊤ : EReal) := by simp [Ideal.ofBits, Ideal.ieee]

/-- A one-bit word made from a truth value is 1 exactly when the truth value holds. -/
theorem ofBool_eq_one (b : Bool) : BitVec.ofBool b = 1#1 ↔ b = true := by cases b <;> decide

/-- One entry's test: the comparison "|x| < the +∞ word" answering 1 makes x a real number. -/
theorem real_of_test (x : Ideal .f32)
    (h : FloatOps.cmpf (F := Ideal) .olt (FloatOps.hostAbsf x) (FloatOps.ofBits (F := Ideal) .f32 0x7F800000#32) = 1#1) :
    ∃ r : ℝ, x = (r : EReal) := by
  apply real_of_abs_lt_top
  have h' : BitVec.ofBool (decide (max x (-x) < Ideal.ofBits .f32 0x7F800000#32)) = 1#1 := h
  rw [ofBool_eq_one, decide_eq_true_eq, inf_word] at h'
  exact h'

/-- One array's test: the "and" over all entries of "|x i| < +∞" answering 1 makes every entry a real number. -/
theorem real_of_all [Facts] (x : FVec Ideal S4x2048x1024 .f32)
    (h : Host.reduce IntOp.andi
          (cmpf .olt (Host.absf x)
            (broadcastInDim S4x2048x1024 ![] Facts.bcast_S_S4x2048x1024 (constant (F := Ideal) S_ .f32 0x7F800000#32)))
          (constantI S_ 1 1#1) Facts.reducesTo_S4x2048x1024_S_d0_1_2 Facts.h_S_ ValueIdx.ix0 = 1#1) :
    ∀ i, ∃ r : ℝ, x i = (r : EReal) := fun i =>
  real_of_test (x i) (Host.reduce_andi_all _ _ _ _ _ h i)

/-- THE PRECONDITION DECODED: when the printed predicate answers 1 on three arrays, every entry of each is a real number. -/
theorem real_of_pre [Facts] (q k v : FVec Ideal S4x2048x1024 .f32)
    (h : Cert.Pre_finite_inputs.fn (F := Ideal) q k v = (fun _ => 1#1)) :
    (∀ i, ∃ r : ℝ, q i = (r : EReal)) ∧ (∀ i, ∃ r : ℝ, k i = (r : EReal)) ∧ (∀ i, ∃ r : ℝ, v i = (r : EReal)) := by
  have e := congrFun h ValueIdx.ix0
  dsimp only [Cert.Pre_finite_inputs.fn] at e
  obtain ⟨hqk, hv⟩ := IntOp.andi_eq_one.1 e
  obtain ⟨hq, hk⟩ := IntOp.andi_eq_one.1 hqk
  exact ⟨real_of_all q hq, real_of_all k hk, real_of_all v hv⟩

end Cert.FiniteInputs

end
-- ==== Proof.Claims.lean ====
/-
  The five claims.

  The three frames are the generated ones (the reference's is its generated run with the result dropped), the
  idealization rewrote nothing, and the two idealized programs end with equal results: under the precondition the
  three inputs are arrays of real numbers, so the kernel's result array is attention of them (AttnValue), and the
  reference's result is attention of its own arguments (RefAttn), which agree with the kernel's.
-/
import proofs.«119473_j2525440770966_2_alg».proof.Defs
import proofs.«119473_j2525440770966_2_alg».proof.Proof.Gen.Kernel.Frame
import proofs.«119473_j2525440770966_2_alg».proof.Proof.Gen.KernelIdeal.Frame
import proofs.«119473_j2525440770966_2_alg».proof.Proof.Gen.KernelIdeal.Value
import proofs.«119473_j2525440770966_2_alg».proof.Proof.Gen.ReferenceIdeal.Run
import proofs.«119473_j2525440770966_2_alg».proof.Proof.Gen.ReferenceIdeal.Read
import proofs.«119473_j2525440770966_2_alg».proof.Proof.Gen.Pre_finite_inputs
import proofs.«119473_j2525440770966_2_alg».proof.Proof.AttnValue
import proofs.«119473_j2525440770966_2_alg».proof.Proof.RefAttn
import proofs.«119473_j2525440770966_2_alg».proof.Proof.FiniteInputs

noncomputable section

open Idealize.ShloMosaic Idealize.ShloMosaic.TcCoe Idealize.SL.Sem

namespace Cert.Proof.Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition the kernel's three argument arrays hold real numbers, on every core. -/
theorem finite_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, Cert.KernelIdeal.AttnValue.argQ m c i = (r : EReal))
      ∧ (∀ i, ∃ r : ℝ, Cert.KernelIdeal.AttnValue.argK m c i = (r : EReal))
      ∧ (∀ i, ∃ r : ℝ, Cert.KernelIdeal.AttnValue.argV m c i = (r : EReal)) :=
  Cert.FiniteInputs.real_of_pre _ _ _ (hpre c)

/-- Both idealized programs end with attention of the (agreeing, finite) arguments. -/
theorem algebraic : Cert.algebraic_KernelIdeal_ReferenceIdeal := by
  intro m ρ m' ρ' hpre hagree
  refine ⟨fun c => Cert.Spec.attn (Cert.KernelIdeal.AttnValue.argQ m c) (Cert.KernelIdeal.AttnValue.argK m c)
    (Cert.KernelIdeal.AttnValue.argV m c), Cert.KernelIdeal.AttnValue.run m ρ (finite_of_pre m hpre), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v23_eq, Cert.RefAttn.ref_eq, (hagree c).1, (hagree c).2.1,
    (hagree c).2.2]

end Cert.Proof.Claims

end
-- ==== Proof.lean ====
/- The proof of `Cert.Claim`: a two-head flash-attention kernel (a softmax accumulated over two blocks of 1024 keys with
   a running maximum, denominator and numerator, the scale 1/8 folded into the queries) against plain softmax
   attention with the scores divided by sqrt 64, over the extended reals and for finite inputs.
   Proof/LibOnlineSoftmax(Law): one query row, the two-block form equals the plain form. Proof/Spec: attention as one
   whole-array function. Proof/RefAttn: the reference computes it. Proof/Pieces, RowSteps, Blocks, BlockValue,
   AttnValue: the kernel's result array is it. Proof/FiniteInputs: the precondition makes the inputs real.
   Proof/Claims: the five claims. -/
import proofs.«119473_j2525440770966_2_alg».proof.Defs
import proofs.«119473_j2525440770966_2_alg».proof.Proof.Gen.Kernel
import proofs.«119473_j2525440770966_2_alg».proof.Proof.Gen.Kernel.Skeleton
import proofs.«119473_j2525440770966_2_alg».proof.Proof.Gen.Kernel.Launch
import proofs.«119473_j2525440770966_2_alg».proof.Proof.Gen.Kernel.Points
import proofs.«119473_j2525440770966_2_alg».proof.Proof.Gen.Kernel.Frame
import proofs.«119473_j2525440770966_2_alg».proof.Proof.Gen.KernelIdeal
import proofs.«119473_j2525440770966_2_alg».proof.Proof.Gen.KernelIdeal.Skeleton
import proofs.«119473_j2525440770966_2_alg».proof.Proof.Gen.KernelIdeal.Launch
import proofs.«119473_j2525440770966_2_alg».proof.Proof.Gen.KernelIdeal.Points
import proofs.«119473_j2525440770966_2_alg».proof.Proof.Gen.KernelIdeal.Frame
import proofs.«119473_j2525440770966_2_alg».proof.Proof.Gen.ReferenceIdeal
import proofs.«119473_j2525440770966_2_alg».proof.Proof.Gen.Pre_finite_inputs
import proofs.«119473_j2525440770966_2_alg».proof.Proof.Gen.KernelIdeal.Value
import proofs.«119473_j2525440770966_2_alg».proof.Proof.Gen.ReferenceIdeal.Run
import proofs.«119473_j2525440770966_2_alg».proof.Proof.Gen.ReferenceIdeal.Read
import proofs.«119473_j2525440770966_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, Claims.frame_k, Claims.frame_ki, Claims.frame_ri, Claims.preserves, Claims.algebraic⟩

end Cert.Proof

end
